-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S32768x128 : Shape := ⟨2, ![32768, 128]⟩
abbrev S32768 : Shape := ⟨1, ![32768]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S4096x128 .f32) (main_arg1 : FVec F S32768x128 .f32) (main_arg2 : FVec F S32768 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S4096x128 : Shape := ⟨2, ![4096, 128]⟩
abbrev S32768x128 : Shape := ⟨2, ![32768, 128]⟩
abbrev S32768 : Shape := ⟨1, ![32768]⟩
abbrev S_ : Shape := ⟨0, ![]⟩
abbrev S1x32768 : Shape := ⟨2, ![1, 32768]⟩
abbrev S4096x32768 : Shape := ⟨2, ![4096, 32768]⟩
abbrev S128x128 : Shape := ⟨2, ![128, 128]⟩
abbrev S128x32768 : Shape := ⟨2, ![128, 32768]⟩
abbrev S128 : Shape := ⟨1, ![128]⟩
abbrev S128x1 : Shape := ⟨2, ![128, 1]⟩
abbrev S2048x128 : Shape := ⟨2, ![2048, 128]⟩
abbrev S1x2048 : Shape := ⟨2, ![1, 2048]⟩
abbrev S128x2048 : Shape := ⟨2, ![128, 2048]⟩

abbrev nBuf : Space → Nat
  | .hbm => 12
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S32768x128, .f32⟩
  | .hbm, ⟨2, _⟩ => ⟨S32768, .f32⟩
  | .hbm, ⟨3, _⟩ => ⟨S32768x128, .f32⟩
  | .hbm, ⟨4, _⟩ => ⟨S_, .f32⟩
  | .hbm, ⟨5, _⟩ => ⟨S32768, .f32⟩
  | .hbm, ⟨6, _⟩ => ⟨S1x32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S1x32768, .f32⟩
  | .hbm, ⟨11, _⟩ => ⟨S4096x32768, .f32⟩
  | .local _ .vmem, ⟨0, _⟩ => ⟨S128x128, .f32⟩
  | .local _ .vmem, ⟨1, _⟩ => ⟨S128x128, .f32⟩
  | .local _ .vmem, ⟨2, _⟩ => ⟨S32768x128, .f32⟩
  | .local _ .vmem, ⟨3, _⟩ => ⟨S1x32768, .f32⟩
  | .local _ .vmem, ⟨4, _⟩ => ⟨S1x32768, .f32⟩
  | .local _ .vmem, ⟨5, _⟩ => ⟨S128x32768, .f32⟩
  | .local _ .vmem, ⟨6, _⟩ => ⟨S128x32768, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v6 : BitVec 32 := Scalar.muli c0_i32 c2048_i32
  v6
def k0_mult2 : BitVec 32 :=
  let c0_i32 : BitVec 32 := 0#32
  let c2048_i32_3 : BitVec 32 := 2048#32
  let v8 : BitVec 32 := Scalar.muli c0_i32 c2048_i32_3
  v8
def k0_off1 (c0_i32 : BitVec 32) : Fin 2 → Nat :=
  let c2048_i32_3 : BitVec 32 := 2048#32
  let v8 : BitVec 32 := Scalar.muli c0_i32 c2048_i32_3
  let v9 : BitVec 32 := v8
  let v10 : Index := Scalar.indexCast v9
  let c0_4 : Index := 0#32
  ![v10.toNat, 0]
def k0_off2 (c0_i32 : BitVec 32) : Fin 2 → Nat :=
  let c0_5 : Index := 0#32
  let c2048_i32_3 : BitVec 32 := 2048#32
  let v8 : BitVec 32 := Scalar.muli c0_i32 c2048_i32_3
  let v9 : BitVec 32 := v8
  let v12 : Index := Scalar.indexCast v9
  ![0, v12.toNat]
def k0_off3 (c0_i32 : BitVec 32) : Fin 2 → Nat :=
  let c0_10 : Index := 0#32
  let c2048_i32 : BitVec 32 := 2048#32
  let v6 : BitVec 32 := Scalar.muli c0_i32 c2048_i32
  let v7 : BitVec 32 := v6
  let v31 : Index := Scalar.indexCast v7
  ![0, v31.toNat]
def k0_mult3 : BitVec 32 :=
  let c1_i32 : BitVec 32 := 1#32
  let c2048_i32_13 : BitVec 32 := 2048#32
  let v45 : BitVec 32 := Scalar.muli c1_i32 c2048_i32_13
  v45
def k0_mult4 : BitVec 32 :=
  let c1_i32 : BitVec 32 := 1#32
  let c2048_i32_14 : BitVec 32 := 2048#32
  let v47 : BitVec 32 := Scalar.muli c1_i32 c2048_i32_14
  v47
def k0_mult5 : BitVec 32 :=
  let c2_i32 : BitVec 32 := 2#32
  let c2048_i32_24 : BitVec 32 := 2048#32
  let v84 : BitVec 32 := Scalar.muli c2_i32 c2048_i32_24
  v84
def k0_mult6 : BitVec 32 :=
  let c2_i32 : BitVec 32 := 2#32
  let c2048_i32_25 : BitVec 32 := 2048#32
  let v86 : BitVec 32 := Scalar.muli c2_i32 c2048_i32_25
  v86
def k0_mult7 : BitVec 32 :=
  let c3_i32 : BitVec 32 := 3#32
  let c2048_i32_35 : BitVec 32 := 2048#32
  let v123 : BitVec 32 := Scalar.muli c3_i32 c2048_i32_35
  v123
def k0_mult8 : BitVec 32 :=
  let c3_i32 : BitVec 32 := 3#32
  let c2048_i32_36 : BitVec 32 := 2048#32
  let v125 : BitVec 32 := Scalar.muli c3_i32 c2048_i32_36
  v125
def k0_mult9 : BitVec 32 :=
  let c4_i32 : BitVec 32 := 4#32
  let c2048_i32_46 : BitVec 32 := 2048#32
  let v162 : BitVec 32 := Scalar.muli c4_i32 c2048_i32_46
  v162
def k0_mult10 : BitVec 32 :=
  let c4_i32 : BitVec 32 := 4#32
  let c2048_i32_47 : BitVec 32 := 2048#32
  let v164 : BitVec 32 := Scalar.muli c4_i32 c2048_i32_47
  v164
def k0_mult11 : BitVec 32 :=
  let c5_i32 : BitVec 32 := 5#32
  let c2048_i32_57 : BitVec 32 := 2048#32
  let v201 : BitVec 32 := Scalar.muli c5_i32 c2048_i32_57
  v201
def k0_mult12 : BitVec 32 :=
  let c5_i32 : BitVec 32 := 5#32
  let c2048_i32_58 : BitVec 32 := 2048#32
  let v203 : BitVec 32 := Scalar.muli c5_i32 c2048_i32_58
  v203
def k0_mult13 : BitVec 32 :=
  let c6_i32 : BitVec 32 := 6#32
  let c2048_i32_68 : BitVec 32 := 2048#32
  let v240 : BitVec 32 := Scalar.muli c6_i32 c2048_i32_68
  v240
def k0_mult14 : BitVec 32 :=
  let c6_i32 : BitVec 32 := 6#32
  let c2048_i32_69 : BitVec 32 := 2048#32
  let v242 : BitVec 32 := Scalar.muli c6_i32 c2048_i32_69
  v242
def k0_mult15 : BitVec 32 :=
  let c7_i32 : BitVec 32 := 7#32
  let c2048_i32_79 : BitVec 32 := 2048#32
  let v279 : BitVec 32 := Scalar.muli c7_i32 c2048_i32_79
  v279
def k0_mult16 : BitVec 32 :=
  let c7_i32 : BitVec 32 := 7#32
  let c2048_i32_80 : BitVec 32 := 2048#32
  let v281 : BitVec 32 := Scalar.muli c7_i32 c2048_i32_80
  v281
def k0_mult17 : BitVec 32 :=
  let c8_i32 : BitVec 32 := 8#32
  let c2048_i32_90 : BitVec 32 := 2048#32
  let v318 : BitVec 32 := Scalar.muli c8_i32 c2048_i32_90
  v318
def k0_mult18 : BitVec 32 :=
  let c8_i32 : BitVec 32 := 8#32
  let c2048_i32_91 : BitVec 32 := 2048#32
  let v320 : BitVec 32 := Scalar.muli c8_i32 c2048_i32_91
  v320
def k0_mult19 : BitVec 32 :=
  let c9_i32 : BitVec 32 := 9#32
  let c2048_i32_101 : BitVec 32 := 2048#32
  let v357 : BitVec 32 := Scalar.muli c9_i32 c2048_i32_101
  v357
def k0_mult20 : BitVec 32 :=
  let c9_i32 : BitVec 32 := 9#32
  let c2048_i32_102 : BitVec 32 := 2048#32
  let v359 : BitVec 32 := Scalar.muli c9_i32 c2048_i32_102
  v359
def k0_mult21 : BitVec 32 :=
  let c10_i32 : BitVec 32 := 10#32
  let c2048_i32_112 : BitVec 32 := 2048#32
  let v396 : BitVec 32 := Scalar.muli c10_i32 c2048_i32_112
  v396
def k0_mult22 : BitVec 32 :=
  let c10_i32 : BitVec 32 := 10#32
  let c2048_i32_113 : BitVec 32 := 2048#32
  let v398 : BitVec 32 := Scalar.muli c10_i32 c2048_i32_113
  v398
def k0_mult23 : BitVec 32 :=
  let c11_i32 : BitVec 32 := 11#32
  let c2048_i32_123 : BitVec 32 := 2048#32
  let v435 : BitVec 32 := Scalar.muli c11_i32 c2048_i32_123
  v435
def k0_mult24 : BitVec 32 :=
  let c11_i32 : BitVec 32 := 11#32
  let c2048_i32_124 : BitVec 32 := 2048#32
  let v437 : BitVec 32 := Scalar.muli c11_i32 c2048_i32_124
  v437
def k0_mult25 : BitVec 32 :=
  let c12_i32 : BitVec 32 := 12#32
  let c2048_i32_134 : BitVec 32 := 2048#32
  let v474 : BitVec 32 := Scalar.muli c12_i32 c2048_i32_134
  v474
def k0_mult26 : BitVec 32 :=
  let c12_i32 : BitVec 32 := 12#32
  let c2048_i32_135 : BitVec 32 := 2048#32
  let v476 : BitVec 32 := Scalar.muli c12_i32 c2048_i32_135
  v476
def k0_mult27 : BitVec 32 :=
  let c13_i32 : BitVec 32 := 13#32
  let c2048_i32_145 : BitVec 32 := 2048#32
  let v513 : BitVec 32 := Scalar.muli c13_i32 c2048_i32_145
  v513
def k0_mult28 : BitVec 32 :=
  let c13_i32 : BitVec 32 := 13#32
  let c2048_i32_146 : BitVec 32 := 2048#32
  let v515 : BitVec 32 := Scalar.muli c13_i32 c2048_i32_146
  v515
def k0_mult29 : BitVec 32 :=
  let c14_i32 : BitVec 32 := 14#32
  let c2048_i32_156 : BitVec 32 := 2048#32
  let v552 : BitVec 32 := Scalar.muli c14_i32 c2048_i32_156
  v552
def k0_mult30 : BitVec 32 :=
  let c14_i32 : BitVec 32 := 14#32
  let c2048_i32_157 : BitVec 32 := 2048#32
  let v554 : BitVec 32 := Scalar.muli c14_i32 c2048_i32_157
  v554
def k0_mult31 : BitVec 32 :=
  let c15_i32 : BitVec 32 := 15#32
  let c2048_i32_167 : BitVec 32 := 2048#32
  let v591 : BitVec 32 := Scalar.muli c15_i32 c2048_i32_167
  v591
def k0_mult32 : BitVec 32 :=
  let c15_i32 : BitVec 32 := 15#32
  let c2048_i32_168 : BitVec 32 := 2048#32
  let v593 : BitVec 32 := Scalar.muli c15_i32 c2048_i32_168
  v593
def k0_mult33 : BitVec 32 :=
  let c0_i32_178 : BitVec 32 := 0#32
  let c2048_i32_179 : BitVec 32 := 2048#32
  let v632 : BitVec 32 := Scalar.muli c0_i32_178 c2048_i32_179
  v632
def k0_mult34 : BitVec 32 :=
  let c1_i32_182 : BitVec 32 := 1#32
  let c2048_i32_183 : BitVec 32 := 2048#32
  let v641 : BitVec 32 := Scalar.muli c1_i32_182 c2048_i32_183
  v641
def k0_mult35 : BitVec 32 :=
  let c2_i32_186 : BitVec 32 := 2#32
  let c2048_i32_187 : BitVec 32 := 2048#32
  let v650 : BitVec 32 := Scalar.muli c2_i32_186 c2048_i32_187
  v650
def k0_mult36 : BitVec 32 :=
  let c3_i32_190 : BitVec 32 := 3#32
  let c2048_i32_191 : BitVec 32 := 2048#32
  let v659 : BitVec 32 := Scalar.muli c3_i32_190 c2048_i32_191
  v659
def k0_mult37 : BitVec 32 :=
  let c4_i32_194 : BitVec 32 := 4#32
  let c2048_i32_195 : BitVec 32 := 2048#32
  let v668 : BitVec 32 := Scalar.muli c4_i32_194 c2048_i32_195
  v668
def k0_mult38 : BitVec 32 :=
  let c5_i32_198 : BitVec 32 := 5#32
  let c2048_i32_199 : BitVec 32 := 2048#32
  let v677 : BitVec 32 := Scalar.muli c5_i32_198 c2048_i32_199
  v677
def k0_mult39 : BitVec 32 :=
  let c6_i32_202 : BitVec 32 := 6#32
  let c2048_i32_203 : BitVec 32 := 2048#32
  let v686 : BitVec 32 := Scalar.muli c6_i32_202 c2048_i32_203
  v686
def k0_mult40 : BitVec 32 :=
  let c7_i32_206 : BitVec 32 := 7#32
  let c2048_i32_207 : BitVec 32 := 2048#32
  let v695 : BitVec 32 := Scalar.muli c7_i32_206 c2048_i32_207
  v695
def k0_mult41 : BitVec 32 :=
  let c8_i32_210 : BitVec 32 := 8#32
  let c2048_i32_211 : BitVec 32 := 2048#32
  let v704 : BitVec 32 := Scalar.muli c8_i32_210 c2048_i32_211
  v704
def k0_mult42 : BitVec 32 :=
  let c9_i32_214 : BitVec 32 := 9#32
  let c2048_i32_215 : BitVec 32 := 2048#32
  let v713 : BitVec 32 := Scalar.muli c9_i32_214 c2048_i32_215
  v713
def k0_mult43 : BitVec 32 :=
  let c10_i32_218 : BitVec 32 := 10#32
  let c2048_i32_219 : BitVec 32 := 2048#32
  let v722 : BitVec 32 := Scalar.muli c10_i32_218 c2048_i32_219
  v722
def k0_mult44 : BitVec 32 :=
  let c11_i32_222 : BitVec 32 := 11#32
  let c2048_i32_223 : BitVec 32 := 2048#32
  let v731 : BitVec 32 := Scalar.muli c11_i32_222 c2048_i32_223
  v731
def k0_mult45 : BitVec 32 :=
  let c12_i32_226 : BitVec 32 := 12#32
  let c2048_i32_227 : BitVec 32 := 2048#32
  let v740 : BitVec 32 := Scalar.muli c12_i32_226 c2048_i32_227
  v740
def k0_mult46 : BitVec 32 :=
  let c13_i32_230 : BitVec 32 := 13#32
  let c2048_i32_231 : BitVec 32 := 2048#32
  let v749 : BitVec 32 := Scalar.muli c13_i32_230 c2048_i32_231
  v749
def k0_mult47 : BitVec 32 :=
  let c14_i32_234 : BitVec 32 := 14#32
  let c2048_i32_235 : BitVec 32 := 2048#32
  let v758 : BitVec 32 := Scalar.muli c14_i32_234 c2048_i32_235
  v758
def k0_mult48 : BitVec 32 :=
  let c15_i32_238 : BitVec 32 := 15#32
  let c2048_i32_239 : BitVec 32 := 2048#32
  let v767 : BitVec 32 := Scalar.muli c15_i32_238 c2048_i32_239
  v767
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S32768x128_S32768_d1 : S32768x128.ReducesTo [1] S32768
  h_S_ : 0 < S_.numel
  shapeCasts_S32768_S1x32768 : S32768.ShapeCasts S1x32768
  bcast_S_S32768 : S_.BroadcastsInDim S32768 (![] : Fin 0 → Fin S32768.rank)
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  h_S2048x128 : 0 < S2048x128.numel
  h_S1x2048 : 0 < S1x2048.numel
  shapeCasts_S1x2048_S1x2048 : S1x2048.ShapeCasts S1x2048
  transposes_S2048x128_p1_0_S128x2048 : S2048x128.Transposes [1, 0] S128x2048
  broadcasts_S128x1_S128x2048 : S128x1.Broadcasts S128x2048
  broadcasts_S1x2048_S128x2048 : S1x2048.Broadcasts S128x2048
  h_S128x2048 : 0 < S128x2048.numel
  reduces_S128x2048_S128 : S128x2048.Reduces [1] S128
  shapeCasts_S128x2048_S128x2048 : S128x2048.ShapeCasts S128x2048
  dot_S128x128_S128x2048_S128x2048_1_0_0_1_n_n_wf : DotDims.WF S128x128 S128x2048 S128x2048 [1] [0] [0] [1] [] []
  hrank0 : 0 < grid0.rank
  k0_mult1_dvd : 2048 ∣ k0_mult1.toNat
  k0_mult2_dvd : 2048 ∣ k0_mult2.toNat
  k0_off1_inb : ∀ (r : Fin 16), ∀ a, (k0_off1 (BitVec.ofNat 32 r.val)) a + S2048x128.size a ≤ S32768x128.size a
  k0_off2_inb : ∀ (r : Fin 16), ∀ a, (k0_off2 (BitVec.ofNat 32 r.val)) a + S1x2048.size a ≤ S1x32768.size a
  k0_off3_inb : ∀ (r : Fin 16), ∀ a, (k0_off3 (BitVec.ofNat 32 r.val)) a + S128x2048.size a ≤ S128x32768.size a
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  k0_mult10_dvd : 2048 ∣ k0_mult10.toNat
  k0_mult11_dvd : 2048 ∣ k0_mult11.toNat
  k0_mult12_dvd : 2048 ∣ k0_mult12.toNat
  k0_mult13_dvd : 2048 ∣ k0_mult13.toNat
  k0_mult14_dvd : 2048 ∣ k0_mult14.toNat
  k0_mult15_dvd : 2048 ∣ k0_mult15.toNat
  k0_mult16_dvd : 2048 ∣ k0_mult16.toNat
  k0_mult17_dvd : 2048 ∣ k0_mult17.toNat
  k0_mult18_dvd : 2048 ∣ k0_mult18.toNat
  k0_mult19_dvd : 2048 ∣ k0_mult19.toNat
  k0_mult20_dvd : 2048 ∣ k0_mult20.toNat
  k0_mult21_dvd : 2048 ∣ k0_mult21.toNat
  k0_mult22_dvd : 2048 ∣ k0_mult22.toNat
  k0_mult23_dvd : 2048 ∣ k0_mult23.toNat
  k0_mult24_dvd : 2048 ∣ k0_mult24.toNat
  k0_mult25_dvd : 2048 ∣ k0_mult25.toNat
  k0_mult26_dvd : 2048 ∣ k0_mult26.toNat
  k0_mult27_dvd : 2048 ∣ k0_mult27.toNat
  k0_mult28_dvd : 2048 ∣ k0_mult28.toNat
  k0_mult29_dvd : 2048 ∣ k0_mult29.toNat
  k0_mult30_dvd : 2048 ∣ k0_mult30.toNat
  k0_mult31_dvd : 2048 ∣ k0_mult31.toNat
  k0_mult32_dvd : 2048 ∣ k0_mult32.toNat
  k0_mult33_dvd : 2048 ∣ k0_mult33.toNat
  k0_mult34_dvd : 2048 ∣ k0_mult34.toNat
  k0_mult35_dvd : 2048 ∣ k0_mult35.toNat
  k0_mult36_dvd : 2048 ∣ k0_mult36.toNat
  k0_mult37_dvd : 2048 ∣ k0_mult37.toNat
  k0_mult38_dvd : 2048 ∣ k0_mult38.toNat
  k0_mult39_dvd : 2048 ∣ k0_mult39.toNat
  k0_mult40_dvd : 2048 ∣ k0_mult40.toNat
  k0_mult41_dvd : 2048 ∣ k0_mult41.toNat
  k0_mult42_dvd : 2048 ∣ k0_mult42.toNat
  k0_mult43_dvd : 2048 ∣ k0_mult43.toNat
  k0_mult44_dvd : 2048 ∣ k0_mult44.toNat
  k0_mult45_dvd : 2048 ∣ k0_mult45.toNat
  k0_mult46_dvd : 2048 ∣ k0_mult46.toNat
  k0_mult47_dvd : 2048 ∣ k0_mult47.toNat
  k0_mult48_dvd : 2048 ∣ k0_mult48.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32768x128.size a ≤ S32768x128.size a
  hwx0_1 : ∀ i : grid0.Coords, EltTy.bits .f32 = 32 ∨ (Rect.block (s := S32768x128) S32768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x32768.size a
  hwx0_2 : ∀ i : grid0.Coords, EltTy.bits .f32 = 32 ∨ (Rect.block (s := S1x32768) S1x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x32768.size a
  hwx0_3 : ∀ i : grid0.Coords, EltTy.bits .f32 = 32 ∨ (Rect.block (s := S1x32768) S1x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32768.size a ≤ S4096x32768.size a
  hwx0_4 : ∀ i : grid0.Coords, EltTy.bits .f32 = 32 ∨ (Rect.block (s := S4096x32768) S128x32768.size (cc0_transform_4 i) (hinb0_4 i)).WholeWords (EltTy.packing .f32)

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S32768x128 : Shape := ⟨2, ![32768, 128]⟩
abbrev S32768 : Shape := ⟨1, ![32768]⟩
abbrev S128x32768 : Shape := ⟨2, ![128, 32768]⟩
abbrev S4096x32768 : Shape := ⟨2, ![4096, 32768]⟩
abbrev S_ : Shape := ⟨0, ![]⟩
abbrev S4096 : Shape := ⟨1, ![4096]⟩
abbrev S4096x1 : Shape := ⟨2, ![4096, 1]⟩
abbrev S1x32768 : Shape := ⟨2, ![1, 32768]⟩

abbrev nBuf : Space → Nat
  | .hbm => 43
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S32768x128, .f32⟩
  | .hbm, ⟨2, _⟩ => ⟨S32768, .f32⟩
  | .hbm, ⟨3, _⟩ => ⟨S128x32768, .f32⟩
  | .hbm, ⟨4, _⟩ => ⟨S4096x32768, .f32⟩
  | .hbm, ⟨5, _⟩ => ⟨S4096x128, .f32⟩
  | .hbm, ⟨6, _⟩ => ⟨S_, .f32⟩
  | .hbm, ⟨7, _⟩ => ⟨S4096, .f32⟩
  | .hbm, ⟨8, _⟩ => ⟨S32768x128, .f32⟩
  | .hbm, ⟨9, _⟩ => ⟨S_, .f32⟩
  | .hbm, ⟨10, _⟩ => ⟨S32768, .f32⟩
  | .hbm, ⟨11, _⟩ => ⟨S4096x1, .f32⟩
  | .hbm, ⟨12, _⟩ => ⟨S1x32768, .f32⟩
  | .hbm, ⟨13, _⟩ => ⟨S4096x32768, .f32⟩
  | .hbm, ⟨14, _⟩ => ⟨S4096x32768, .f32⟩
  | .hbm, ⟨15, _⟩ => ⟨S4096x32768, .f32⟩
  | .hbm, ⟨16, _⟩ => ⟨S_, .f32⟩
  | .hbm, ⟨17, _⟩ => ⟨S4096x32768, .f32⟩
  | .hbm, ⟨18, _⟩ => ⟨S4096x32768, .f32⟩
  | .hbm, ⟨19, _⟩ => ⟨S4096x32768, .f32⟩
  | .hbm, ⟨20, _⟩ => ⟨S_, .f32⟩
  | .hbm, ⟨21, _⟩ => ⟨S4096x32768, .f32⟩
  | .hbm, ⟨22, _⟩ => ⟨S4096x32768, .f32⟩
  | .hbm, ⟨23, _⟩ => ⟨S4096x32768, .f32⟩
  | .hbm, ⟨24, _⟩ => ⟨S4096x32768, .f32⟩
  | .hbm, ⟨25, _⟩ => ⟨S1x32768, .f32⟩
  | .hbm, ⟨26, _⟩ => ⟨S4096x32768, .f32⟩
  | .hbm, ⟨27, _⟩ => ⟨S4096x32768, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x32768, .f32⟩
  | .hbm, ⟨35, _⟩ => ⟨S4096x32768, .f32⟩
  | .hbm, ⟨36, _⟩ => ⟨S4096x32768, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1, .f32⟩
  | .hbm, ⟨41, _⟩ => ⟨S4096x32768, .f32⟩
  | .hbm, ⟨42, _⟩ => ⟨S4096x32768, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  transposes_S32768x128_S128x32768_1_0 : S32768x128.Transposes [1, 0] S128x32768
  reducesTo_S4096x128_S4096_d1 : S4096x128.ReducesTo [1] S4096
  h_S_ : 0 < S_.numel
  reducesTo_S32768x128_S32768_d1 : S32768x128.ReducesTo [1] S32768
  bcast_S4096_S4096x1_0 : S4096.BroadcastsInDim S4096x1 (![0] : Fin 1 → Fin S4096x1.rank)
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  bcast_S_S4096x32768 : S_.BroadcastsInDim S4096x32768 (![] : Fin 0 → Fin S4096x32768.rank)
  reducesTo_S4096x32768_S4096_d1 : S4096x32768.ReducesTo [1] S4096
  bcast_S_S4096 : S_.BroadcastsInDim S4096 (![] : Fin 0 → Fin S4096.rank)
  dot_S4096x128_S128x32768_S4096x32768_1_0_0_1_n_n_wf : DotDims.WF S4096x128 S128x32768 S4096x32768 [1] [0] [0] [1] [] []

variable [Facts₀]

def dot_S4096x128_S128x32768_S4096x32768_1_0_0_1_n_n : DotDims S4096x128 S128x32768 S4096x32768 where
  lhsContracting := [1]
  rhsContracting := [0]
  lhsNonContracting := [0]
  rhsNonContracting := [1]
  lhsBatch := []
  rhsBatch := []
  wf := dot_S4096x128_S128x32768_S4096x32768_1_0_0_1_n_n_wf

class Facts : Prop extends Facts₀ where

variable [Facts]
-- ==== Proof.LibKernelLayout.lean ====
/-
  Layout operations and reductions read at an index, in the forms the two bodies use: a vector made a column, a column
  spread over lanes, a bias row spread over rows, a sum or a maximum along one axis of a matrix, and the
  "not equal to zero" mask as a number.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KBodyLayout

open Idealize.ShloMosaic Idealize.ShloMosaic.ValueIdx

variable {α : Type}

/-- A vector of length `a` cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `b` made a `[1, b]` row and spread over `a` rows reads, at `(p, c)`, the vector at `c`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The index over `(j)` with row `o` inserted on axis 0 is `(o, j)`. -/
theorem lift0_eq {a b : ℕ} (h : (⟨2, ![a, b]⟩ : Shape).Reduces [0] ⟨1, ![b]⟩) (j : Fin b) (o : Fin a) :
    h.lift (ix1 j) o = ix2 o j :=
  funext fun ax => Fin.ext (by
    match ax with
    | ⟨0, _⟩ => rfl
    | ⟨1, _⟩ => rfl)

/-- The index over `(o)` with column `f` inserted on axis 1 is `(o, f)`. -/
theorem lift1_eq {a b : ℕ} (h : (⟨2, ![a, b]⟩ : Shape).Reduces [1] ⟨1, ![a]⟩) (o : Fin a) (f : Fin b) :
    h.lift (ix1 o) f = ix2 o f :=
  funext fun ax => Fin.ext (by
    match ax with
    | ⟨0, _⟩ => rfl
    | ⟨1, _⟩ => rfl)

/-- A sum down the rows of an `[a, b]` matrix reads, at column `j`, the sum over the rows of that column. -/
theorem sumRows_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ o : Fin a, src (ix2 o j) :=
  (Ideal.multiReduction_add_single src _ h hφ hacc (ix1 j)).trans
    (Finset.sum_congr rfl fun o _ => congrArg src (lift0_eq h j o))

/-- A maximum down the rows of an `[a, b]` matrix reads, at column `j`, the largest entry of that column, starting
    from the value the accumulator's word denotes. -/
theorem maxRows_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ src 0xFF800000#32 h hφ hacc (ix1 j)
      = (Finset.univ : Finset (Fin a)).fold max (Ideal.ofBits .f32 0xFF800000#32) (fun o => src (ix2 o j)) :=
  (Ideal.multiReduction_maximumf_single src _ h hφ hacc (ix1 j)).trans
    (congrArg (Finset.fold max (Ideal.ofBits .f32 0xFF800000#32) · Finset.univ) (funext fun o => congrArg src (lift0_eq h j o)))

/-- A maximum along the lanes of an `[a, b]` matrix reads, at row `o`, the largest entry of that row, starting from
    the value the accumulator's word denotes. -/
theorem maxLanes_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (o : Fin a) :
    multiReduction .maximumf [1] ⟨1, ![a]⟩ src 0xFF800000#32 h hφ hacc (ix1 o)
      = (Finset.univ : Finset (Fin b)).fold max (Ideal.ofBits .f32 0xFF800000#32) (fun f => src (ix2 o f)) :=
  (Ideal.multiReduction_maximumf_single src _ h hφ hacc (ix1 o)).trans
    (congrArg (Finset.fold max (Ideal.ofBits .f32 0xFF800000#32) · Finset.univ) (funext fun f => congrArg src (lift1_eq h o f)))

/-- The comparison "is not equal to zero", widened to a 32-bit integer and converted to a number, is one when the
    value is not zero and zero when it is. -/
theorem ne_zero_mask (x : EReal) :
    (FloatOps.sitofp (F := Ideal) .f32 ((FloatOps.cmpf (F := Ideal) (φ := .f32) .one x (Ideal.ofBits .f32 0x00000000#32)).setWidth 32) : EReal)
      = if x ≠ 0 then 1 else 0 := by
  rw [Ideal.cmpf_def, Ideal.ofBits_zero_f32]
  unfold Ideal.cmp
  by_cases hx : x = 0
  · subst hx
    simp
    show (((0#32 : BitVec 32).toInt : ℝ) : EReal) = 0
    simp
  · simp [hx]
    show (((1#32 : BitVec 32).toInt : ℝ) : EReal) = 1
    simp

end Cert.KBodyLayout

end
-- ==== Proof.KernelBlock.lean ====
/-
  What one grid point's body leaves in its [128, 32768] output block.

  The body reads the x block, and for each of the sixteen column chunks c the 2048 rows of y, the 2048 entries of |y|²
  and the 2048 entries of -1/std; it stores the chunk's block sim_c, and carries a column pair (level, sum) through the
  chunks; then, with nrm = level + log sum, it reads every stored chunk back and stores sim_c - nrm in its place.
  So the last store on each chunk wins, and it holds (what the first pass stored there) minus nrm, row by row.
  The statements here are about vectors as wholes and about the list of stores; reading the arithmetic at an index is
  the next module.
-/
import proofs.«155251_j71116068487480_2_alg».proof.Proof.Gen.KernelIdeal.Frame
import Idealize.ShloMosaic.Lib.ValueIdx
import Idealize.ShloMosaic.Lib.Pipeline.Value
import proofs.«155251_j71116068487480_2_alg».proof.Proof.LibKernelLayout

set_option maxRecDepth 16384

noncomputable section

namespace Cert.KernelIdeal.Blk

open Cert.KernelIdeal Cert.KernelIdeal.Gen
open Idealize.ShloMosaic Idealize.ShloMosaic.TcCoe Idealize.ShloMosaic.ValueIdx Idealize.SL.Sem

variable {F : FTy → Type} [FloatOps F]

/-! ## The body's arithmetic on whole vectors -/

/-- One chunk's block of sim = sqrt (max (|x|² + |y|² - 2 x·y, ε)) · ninv, from the x block, the chunk's 2048 rows of y,
    and its 2048 entries of |y|² and of ninv = -1/std. -/
def sim (X : Vec F S128x128 .f32) (Yc : Vec F S2048x128 .f32) (Bc Nc : Vec F S1x2048 .f32) : FVec F S128x2048 .f32 :=
  k0_pay4 X Yc Bc Nc

/-- A chunk's row maxima, as a column. -/
def cmax (s : FVec F S128x2048 .f32) : FVec F S128x1 .f32 :=
  shapeCast S128x1 (multiReduction .maximumf [1] S128 s 0xFF800000#32 reduces_S128x2048_S128 (.inl rfl) rfl) shapeCasts_S128_S128x1
/-- A chunk's row sums, as a column. -/
def csum (e : FVec F S128x2048 .f32) : FVec F S128x1 .f32 :=
  shapeCast S128x1 (multiReduction .add [1] S128 e 0x00000000#32 reduces_S128x2048_S128 (.inl rfl) rfl) shapeCasts_S128_S128x1
/-- The level column after one more chunk. -/
def mStep (m : FVec F S128x1 .f32) (s : FVec F S128x2048 .f32) : FVec F S128x1 .f32 := maximumf m (cmax s)
/-- The rescaled-sum column after one more chunk. -/
def lStep (m l : FVec F S128x1 .f32) (s : FVec F S128x2048 .f32) : FVec F S128x1 .f32 :=
  addf (mulf l (exp (subf m (mStep m s)))) (csum (exp (subf s (broadcastTo S128x2048 (mStep m s) broadcasts_S128x1_S128x2048))))
/-- The starting level, -∞ in every row. -/
def m0 : FVec F S128x1 .f32 := broadcast S128x1 (Scalar.ofBits .f32 0xFF800000#32)
/-- The starting sum, 0 in every row. -/
def l0 : FVec F S128x1 .f32 := broadcast S128x1 (Scalar.ofBits .f32 0x00000000#32)

/-- The level column after the first n chunks of the family S. -/
def mV (S : ℕ → FVec F S128x2048 .f32) : ℕ → FVec F S128x1 .f32
  | 0 => m0
  | n + 1 => mStep (mV S n) (S n)
/-- The sum column after the first n chunks. -/
def lV (S : ℕ → FVec F S128x2048 .f32) : ℕ → FVec F S128x1 .f32
  | 0 => l0
  | n + 1 => lStep (mV S n) (lV S n) (S n)
/-- level + log sum after all sixteen chunks. -/
def normV (S : ℕ → FVec F S128x2048 .f32) : FVec F S128x1 .f32 := addf (mV S 16) (log (lV S 16))

/-- The second pass's store: the chunk read back, minus nrm spread along the lanes. -/
def fin (nrm : FVec F S128x1 .f32) (v : Vec F S128x2048 .f32) : FVec F S128x2048 .f32 :=
  subf (shapeCast S128x2048 v shapeCasts_S128x2048_S128x2048) (broadcastTo S128x2048 nrm broadcasts_S128x1_S128x2048)

/-! ## The rectangles of chunk c -/

theorem inbO (c : ℕ) (hc : c < 16) : ∀ a, (![0, 2048 * c] : Fin 2 → ℕ) a + S128x2048.size a ≤ S128x32768.size a :=
  Rect.inb₂ (by show 0 + 128 ≤ 128; omega) (by show 2048 * c + 2048 ≤ 32768; omega)
theorem inbY (c : ℕ) (hc : c < 16) : ∀ a, (![2048 * c, 0] : Fin 2 → ℕ) a + S2048x128.size a ≤ S32768x128.size a :=
  Rect.inb₂ (by show 2048 * c + 2048 ≤ 32768; omega) (by show 0 + 128 ≤ 128; omega)
theorem inbR (c : ℕ) (hc : c < 16) : ∀ a, (![0, 2048 * c] : Fin 2 → ℕ) a + S1x2048.size a ≤ S1x32768.size a :=
  Rect.inb₂ (by show 0 + 1 ≤ 1; omega) (by show 2048 * c + 2048 ≤ 32768; omega)

/-- Columns 2048·c … 2048·c + 2047 of the output block. -/
abbrev orect (c : ℕ) (hc : c < 16) : Rect S128x32768 := Rect.unit ![0, 2048 * c] S128x2048.size (inbO c hc)

/-! ## The blocks as the body loads them, and the sixteen sim blocks -/

section Loads

variable (arg1 : Memref sig .tc .vmem S128x128 .f32) (harg1 : arg1.IsWhole) (arg2 : Memref sig .tc .vmem S32768x128 .f32) (harg2 : arg2.IsWhole)
  (arg3 : Memref sig .tc .vmem S1x32768 .f32) (harg3 : arg3.IsWhole) (arg4 : Memref sig .tc .vmem S1x32768 .f32) (harg4 : arg4.IsWhole)
  (x0 : Vec F S128x128 .f32) (x1 : Vec F S32768x128 .f32) (x2 : Vec F S1x32768 .f32) (x3 : Vec F S1x32768 .f32)

/-- The x block as loaded. -/
def ldX : Vec F S128x128 .f32 :=
  View.readAt (Elt F) arg1.view (Rect.unit (s := S128x128) ![0, 0] S128x128.size inb_S128x128_S128x128_0_0).toLoadRect (harg1.unread x0)
/-- Rows 2048·c … of y as loaded. -/
def ldY (c : ℕ) (hc : c < 16) : Vec F S2048x128 .f32 :=
  View.readAt (Elt F) arg2.view (Rect.unit (s := S32768x128) ![2048 * c, 0] S2048x128.size (inbY c hc)).toLoadRect (harg2.unread x1)
/-- Entries 2048·c … of |y|² as loaded. -/
def ldB (c : ℕ) (hc : c < 16) : Vec F S1x2048 .f32 :=
  View.readAt (Elt F) arg3.view (Rect.unit (s := S1x32768) ![0, 2048 * c] S1x2048.size (inbR c hc)).toLoadRect (harg3.unread x2)
/-- Entries 2048·c … of ninv as loaded. -/
def ldN (c : ℕ) (hc : c < 16) : Vec F S1x2048 .f32 :=
  View.readAt (Elt F) arg4.view (Rect.unit (s := S1x32768) ![0, 2048 * c] S1x2048.size (inbR c hc)).toLoadRect (harg4.unread x3)

/-- Chunk c's sim block (chunk 0's beyond the sixteenth, never used). -/
def sims (c : ℕ) : FVec F S128x2048 .f32 :=
  if hc : c < 16 then sim (ldX arg1 harg1 x0) (ldY arg2 harg2 x1 c hc) (ldB arg3 harg3 x2 c hc) (ldN arg4 harg4 x3 c hc)
  else sim (ldX arg1 harg1 x0) (ldY arg2 harg2 x1 0 (by omega)) (ldB arg3 harg3 x2 0 (by omega)) (ldN arg4 harg4 x3 0 (by omega))

end Loads

/-! ## The stores, as lists (last store first) -/

/-- The first pass's stores of the first c chunks. -/
def staged (S : ℕ → FVec F S128x2048 .f32) : ℕ → List (View.Piece (Elt F) S128x32768 .f32)
  | 0 => []
  | c + 1 => if hc : c < 16 then ⟨orect c hc, S c⟩ :: staged S c else staged S c

/-- The stores after the second pass has rewritten the first c chunks over the stores L0: each reads its chunk back from
    what the stores so far left, and stores it minus nrm. -/
def chain (arg5 : Memref sig .tc .vmem S128x32768 .f32) (L0 : List (View.Piece (Elt F) S128x32768 .f32)) (nrm : FVec F S128x1 .f32) :
    ℕ → List (View.Piece (Elt F) S128x32768 .f32)
  | 0 => L0
  | c + 1 =>
    if hc : c < 16 then
      ⟨orect c hc, fin nrm (arg5.view.readCov (chain arg5 L0 nrm c) (orect c hc).toLoadRect)⟩ :: chain arg5 L0 nrm c
    else chain arg5 L0 nrm c

/-- THE BODY'S STORES: the thirty-two stores the run finds are the second pass over the first, with the sixteen sim
    blocks and nrm = level + log sum of the running pair over them. -/
theorem pieces_eq (c : Dev nD) (i : grid0.Coords) (arg1 : Memref sig .tc .vmem S128x128 .f32) (harg1 : arg1.IsWhole) (arg2 : Memref sig .tc .vmem S32768x128 .f32) (harg2 : arg2.IsWhole)
    (arg3 : Memref sig .tc .vmem S1x32768 .f32) (harg3 : arg3.IsWhole) (arg4 : Memref sig .tc .vmem S1x32768 .f32) (harg4 : arg4.IsWhole)
    (arg5 : Memref sig .tc .vmem S128x32768 .f32) (harg5 : arg5.IsWhole)
    (x0 : Vec F S128x128 .f32) (x1 : Vec F S32768x128 .f32) (x2 : Vec F S1x32768 .f32) (x3 : Vec F S1x32768 .f32) :
    (kernelRun0_A c i arg1 harg1 arg2 harg2 arg3 harg3 arg4 harg4 arg5 harg5 x0 x1 x2 x3).1
      = chain arg5 (staged (sims arg1 harg1 arg2 harg2 arg3 harg3 arg4 harg4 x0 x1 x2 x3) 16)
          (normV (sims arg1 harg1 arg2 harg2 arg3 harg3 arg4 harg4 x0 x1 x2 x3)) 16 := rfl

end Cert.KernelIdeal.Blk

end
-- ==== Proof.KernelCanon.lean ====
/-
  Reading the body's thirty-two stores back.  The first pass stores chunk c's sim block on columns 2048·c … ; the second
  pass rewrites chunk after chunk, and a rewrite of chunk c does not touch the columns of later chunks, so when chunk c is
  read back it still holds its sim block.  After the second pass every column (r, j) therefore holds
      sim_{j / 2048}(r, j % 2048) - nrm(r).
-/
import proofs.«155251_j71116068487480_2_alg».proof.Proof.KernelBlock

set_option maxRecDepth 16384

noncomputable section

namespace Cert.KernelIdeal.Blk

open Cert.KernelIdeal Cert.KernelIdeal.Gen
open Idealize.ShloMosaic Idealize.ShloMosaic.TcCoe Idealize.ShloMosaic.ValueIdx Idealize.SL.Sem

variable {F : FTy → Type} [FloatOps F]

/-! ## Coordinates of an index of the block, and of a chunk's rectangle -/

/-- The row of an index of the [128, 32768] block. -/
def rowOf (y : S128x32768.Idx) : Fin 128 := ⟨(y 0).val, (y 0).isLt⟩
/-- The chunk its column lies in. -/
def chunkOf (y : S128x32768.Idx) : ℕ := (y 1).val / 2048
/-- The column within the chunk. -/
def laneOf (y : S128x32768.Idx) : Fin 2048 := ⟨(y 1).val % 2048, Nat.mod_lt _ (by norm_num)⟩

theorem emb_row (c : ℕ) (hc : c < 16) (r : Fin 128) (q : Fin 2048) : rowOf ((orect c hc).emb (ix2 r q)) = r :=
  Fin.ext (by
    show ((orect c hc).emb (ix2 r q) 0).val = r.val
    rw [Rect.emb_apply]
    show 0 + 1 * r.val = r.val
    omega)

theorem emb_col (c : ℕ) (hc : c < 16) (r : Fin 128) (q : Fin 2048) : ((orect c hc).emb (ix2 r q) 1).val = 2048 * c + q.val := by
  rw [Rect.emb_apply]
  show 2048 * c + 1 * q.val = 2048 * c + q.val
  omega

theorem mem_orect (c : ℕ) (hc : c < 16) (y : S128x32768.Idx) :
    y ∈ (orect c hc).set ↔ 2048 * c ≤ (y 1).val ∧ (y 1).val < 2048 * c + 2048 := by
  rw [Rect.mem_set_unit]
  constructor
  · intro h
    exact h 1
  · intro h a
    match a with
    | ⟨0, _⟩ => exact ⟨Nat.zero_le _, by have h0 : (y 0).val < 128 := (y 0).isLt; show (y 0).val < 0 + 128; omega⟩
    | ⟨1, _⟩ => exact h

/-! ## The first pass read back -/

/-- After the first pass has stored the first c chunks, a column of one of them holds its chunk's sim block there. -/
theorem canon_staged (S : ℕ → FVec F S128x2048 .f32) : ∀ c, c ≤ 16 → ∀ y : S128x32768.Idx, (y 1).val < 2048 * c →
    View.canon (staged S c) y = S (chunkOf y) (ix2 (rowOf y) (laneOf y))
  | 0, _, y, hy => absurd hy (by omega)
  | c + 1, hc16, y, hy => by
    have hc : c < 16 := by omega
    rw [staged, dif_pos hc]
    by_cases hm : y ∈ (orect c hc).set
    · obtain ⟨x, rfl⟩ := (orect c hc).exists_idx_of_mem hm
      obtain ⟨r, q, rfl⟩ : ∃ (r : Fin 128) (q : Fin 2048), x = ix2 r q := ⟨x 0, x 1, eq_ix2 x⟩
      rw [show (orect c hc).idx (ix2 r q) = (orect c hc).emb (ix2 r q) from rfl, View.canon_cons_emb]
      have h1 := emb_col c hc r q
      have hq := q.isLt
      have e1 : chunkOf ((orect c hc).emb (ix2 r q)) = c := by unfold chunkOf; rw [h1]; omega
      have e2 : laneOf ((orect c hc).emb (ix2 r q)) = q := Fin.ext (by
        show ((orect c hc).emb (ix2 r q) 1).val % 2048 = q.val
        rw [h1]; omega)
      rw [e1, e2, emb_row]
    · rw [View.canon_cons_of_not_mem _ _ (by exact hm)]
      refine canon_staged S c (by omega) y ?_
      by_contra hge
      exact hm ((mem_orect c hc y).mpr ⟨by omega, by omega⟩)

/-! ## The second pass -/

/-- Rewriting the first c chunks leaves the columns of the later chunks as they were. -/
theorem canon_chain_keep (arg5 : Memref sig .tc .vmem S128x32768 .f32) (L0 : List (View.Piece (Elt F) S128x32768 .f32)) (nrm : FVec F S128x1 .f32) :
    ∀ c, ∀ y : S128x32768.Idx, 2048 * c ≤ (y 1).val → View.canon (chain arg5 L0 nrm c) y = View.canon L0 y
  | 0, _, _ => rfl
  | c + 1, y, hy => by
    by_cases hc : c < 16
    · rw [chain, dif_pos hc, View.canon_cons_of_not_mem _ _ (fun hm => by have := ((mem_orect c hc y).mp hm).2; omega)]
      exact canon_chain_keep arg5 L0 nrm c y (by omega)
    · rw [chain, dif_neg hc]
      exact canon_chain_keep arg5 L0 nrm c y (by omega)

/-- The second pass's store at (r, q): the chunk as read back, minus nrm at row r. -/
theorem fin_apply (nrm : FVec Ideal S128x1 .f32) (v : Vec Ideal S128x2048 .f32) (r : Fin 128) (q : Fin 2048) :
    fin nrm v (ix2 r q) = v (ix2 r q) - nrm (ix2 r (0 : Fin 1)) := by
  unfold fin
  rw [subf_apply, shapeCast_self, Cert.KBodyLayout.broadcastTo_a1_ab_apply]

/-- After the second pass has rewritten the first c chunks, a column of one of them holds what the stores before the
    second pass left there, minus nrm at its row. -/
theorem canon_chain_done (arg5 : Memref sig .tc .vmem S128x32768 .f32) (L0 : List (View.Piece (Elt Ideal) S128x32768 .f32)) (nrm : FVec Ideal S128x1 .f32) :
    ∀ c, c ≤ 16 → ∀ y : S128x32768.Idx, (y 1).val < 2048 * c →
    View.canon (chain arg5 L0 nrm c) y = (View.canon L0 y : EReal) - nrm (ix2 (rowOf y) (0 : Fin 1))
  | 0, _, y, hy => absurd hy (by omega)
  | c + 1, hc16, y, hy => by
    have hc : c < 16 := by omega
    rw [chain, dif_pos hc]
    by_cases hm : y ∈ (orect c hc).set
    · obtain ⟨x, rfl⟩ := (orect c hc).exists_idx_of_mem hm
      obtain ⟨r, q, rfl⟩ : ∃ (r : Fin 128) (q : Fin 2048), x = ix2 r q := ⟨x 0, x 1, eq_ix2 x⟩
      rw [show (orect c hc).idx (ix2 r q) = (orect c hc).emb (ix2 r q) from rfl, View.canon_cons_emb, fin_apply,
        View.readCov_eq_canon', emb_row]
      have hk := canon_chain_keep arg5 L0 nrm c ((orect c hc).emb (ix2 r q)) (by rw [emb_col]; omega)
      exact congrArg (· - nrm (ix2 r (0 : Fin 1))) hk
    · rw [View.canon_cons_of_not_mem _ _ (by exact hm)]
      refine canon_chain_done arg5 L0 nrm c (by omega) y ?_
      by_contra hge
      exact hm ((mem_orect c hc y).mpr ⟨by omega, by omega⟩)

/-! ## What the body leaves in the output block -/

/-- THE BLOCK: at column j of row r the body leaves sim_{j / 2048}(r, j % 2048) - nrm(r). -/
theorem out_apply (c : Dev nD) (i : grid0.Coords) (arg1 : Memref sig .tc .vmem S128x128 .f32) (harg1 : arg1.IsWhole) (arg2 : Memref sig .tc .vmem S32768x128 .f32) (harg2 : arg2.IsWhole)
    (arg3 : Memref sig .tc .vmem S1x32768 .f32) (harg3 : arg3.IsWhole) (arg4 : Memref sig .tc .vmem S1x32768 .f32) (harg4 : arg4.IsWhole)
    (arg5 : Memref sig .tc .vmem S128x32768 .f32) (harg5 : arg5.IsWhole)
    (x0 : Vec Ideal S128x128 .f32) (x1 : Vec Ideal S32768x128 .f32) (x2 : Vec Ideal S1x32768 .f32) (x3 : Vec Ideal S1x32768 .f32) (y : S128x32768.Idx) :
    out0_A_4 c i arg1 harg1 arg2 harg2 arg3 harg3 arg4 harg4 arg5 harg5 x0 x1 x2 x3 y
      = (sims arg1 harg1 arg2 harg2 arg3 harg3 arg4 harg4 x0 x1 x2 x3 (chunkOf y) (ix2 (rowOf y) (laneOf y)) : EReal)
        - normV (sims arg1 harg1 arg2 harg2 arg3 harg3 arg4 harg4 x0 x1 x2 x3) (ix2 (rowOf y) (0 : Fin 1)) := by
  have hy : (y 1).val < 2048 * 16 := (y 1).isLt
  unfold out0_A_4
  rw [View.read_writes_eq_canon _ _ _ (cover0_A_4 c i arg1 harg1 arg2 harg2 arg3 harg3 arg4 harg4 arg5 harg5 x0 x1 x2 x3), pieces_eq,
    canon_chain_done _ _ _ 16 le_rfl y hy, canon_staged _ 16 le_rfl y hy]

end Cert.KernelIdeal.Blk

end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibMxuDot.lean ====
/-
  A matrix-unit product into the zero accumulator, read at an index over the extended reals. Two arrangements: the
  plain one, `[M, K] × [K, N]`, whose entry `(n, j)` is `∑ k, A[n,k] · B[k,j]`; and the one that contracts the ROW axis
  of both operands, `[K, M] × [K, N]`, whose entry `(e, f)` is `∑ o, A[o,e] · B[o,f]`.
-/
import Idealize.ShloMosaic.Lib.ValueIdx
import Idealize.ShloMosaic.PureOps.Ideal.Laws
import proofs.«155251_j71116068487480_2_alg».proof.Proof.LibDot

noncomputable section

namespace Cert.KBodyDot

open Idealize.ShloMosaic Idealize.ShloMosaic.ValueIdx

variable {M K N : Nat}

/-- THE PLAIN PRODUCT AT `(n, j)`, for any record of dimension numbers that is the plain one. -/
theorem plainMatmul_apply {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂) (n : Fin M) (j : Fin N) :
    matmul D prec A B (constant (F := Ideal) ⟨2, ![M, N]⟩ .f32 0x00000000#32) (ix2 n j) = ∑ k : Fin K, A (ix2 n k) * B (ix2 k j) := by
  subst hD
  refine (Ideal.matmul_constant_zero_apply (DotDims.plain M K N) prec A B (ix2 n j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact Cert.Dot.lhs0 _ _
    | ⟨1, _⟩ => exact (Cert.Dot.lhs1 _ _).trans hk)
  have er : (DotDims.plain M K N).rhsIdx (ix2 n j) ((contrEquiv1 (DotDims.plain M K N) K rfl rfl).symm k) = ix2 k j := funext fun a => Fin.ext (by
    match a with
    | ⟨0, _⟩ => exact (Cert.Dot.rhs0 _ _).trans hk
    | ⟨1, _⟩ => exact Cert.Dot.rhs1 _ _)
  rw [el, er]

/-- The dimension numbers that contract axis 0 of both operands: `[K, M]` by `[K, N]` gives `[M, N]`. -/
def rowsDot (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable (wf : DotDims.WF ⟨2, ![K, M]⟩ ⟨2, ![K, N]⟩ ⟨2, ![M, N]⟩ [0] [0] [1] [1] [] [])

theorem rlhs0 (i : (⟨2, ![M, N]⟩ : Shape).Idx) (q : (rowsDot M K N wf).contr.Idx) : ((rowsDot M K N wf).lhsIdx i q 0).val = (q ⟨0, Nat.one_pos⟩).val :=
  (rowsDot M K N wf).lhsIdx_val_of_single rfl i q
theorem rlhs1 (i : (⟨2, ![M, N]⟩ : Shape).Idx) (q : (rowsDot M K N wf).contr.Idx) : ((rowsDot M K N wf).lhsIdx i q 1).val = (i 0).val := by
  unfold DotDims.lhsIdx
  rw [dif_neg (show ¬(1 : Fin 2) ∈ (rowsDot M K N wf).lhsBatch from List.not_mem_nil), dif_pos (show (1 : Fin 2) ∈ (rowsDot M K N wf).lhsNonContracting from List.mem_singleton.mpr rfl)]
  rfl
theorem rrhs0 (i : (⟨2, ![M, N]⟩ : Shape).Idx) (q : (rowsDot M K N wf).contr.Idx) : ((rowsDot M K N wf).rhsIdx i q 0).val = (q ⟨0, Nat.one_pos⟩).val :=
  (rowsDot M K N wf).rhsIdx_val_of_single rfl i q
theorem rrhs1 (i : (⟨2, ![M, N]⟩ : Shape).Idx) (q : (rowsDot M K N wf).contr.Idx) : ((rowsDot M K N wf).rhsIdx i q 1).val = (i 1).val := by
  unfold DotDims.rhsIdx
  rw [dif_neg (show ¬(1 : Fin 2) ∈ (rowsDot M K N wf).rhsBatch from List.not_mem_nil), dif_pos (show (1 : Fin 2) ∈ (rowsDot M K N wf).rhsNonContracting from List.mem_singleton.mpr rfl)]
  rfl

/-- THE ROW-CONTRACTED PRODUCT AT `(e, f)`: column `e` of the left operand against column `f` of the right one. -/
theorem rowsMatmul_apply {φ₁ φ₂ : FTy} (D : DotDims ⟨2, ![K, M]⟩ ⟨2, ![K, N]⟩ ⟨2, ![M, N]⟩) (hD : D = rowsDot M K N wf)
    (prec : Option ContractPrecision) (A : FVec Ideal ⟨2, ![K, M]⟩ φ₁) (B : FVec Ideal ⟨2, ![K, N]⟩ φ₂) (e : Fin M) (f : Fin N) :
    matmul D prec A B (constant (F := Ideal) ⟨2, ![M, N]⟩ .f32 0x00000000#32) (ix2 e f) = ∑ o : Fin K, A (ix2 o e) * B (ix2 o f) := by
  subst hD
  refine (Ideal.matmul_constant_zero_apply (rowsDot M K N wf) prec A B (ix2 e f)).trans ?_
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 e f) ((contrEquiv1 (rowsDot M K N wf) K rfl rfl).symm k) = ix2 k e := funext fun a => Fin.ext (by
    match a with
    | ⟨0, _⟩ => exact (rlhs0 wf _ _).trans hk
    | ⟨1, _⟩ => exact rlhs1 wf _ _)
  have er : (rowsDot M K N wf).rhsIdx (ix2 e f) ((contrEquiv1 (rowsDot M K N wf) K rfl rfl).symm k) = ix2 k f := funext fun a => Fin.ext (by
    match a with
    | ⟨0, _⟩ => exact (rrhs0 wf _ _).trans hk
    | ⟨1, _⟩ => exact rrhs1 wf _ _)
  rw [el, er]

end

end Cert.KBodyDot

end
-- ==== Proof.LibLseChunks.lean ====
/-
  A running log-sum-exp on the extended reals, with entries that may be -∞.

  A row of values is read chunk by chunk.  The running pair is a level m (the maximum so far) and a sum l; a chunk
  with entries x_q moves it to
      m' = max m (max_q x_q),      l' = l · exp (m - m') + Σ_q exp (x_q - m').
  Invariant: m is the supremum of the entries read so far and l = Σ exp (x - m) over them.  The entries are
  below +∞ but may be -∞, so the level may be -∞ (then every entry so far is -∞ and l = 0); the rescaling identity
  exp (x - m) · exp (m - m') = exp (x - m') for x ≤ m ≤ m' < +∞ holds in every such corner, and a nonnegative
  factor moves into a finite sum of nonnegative terms.  Finally x - (m + L) = (x - m) - L whenever x ≤ m < +∞,
  whatever L is, which joins "subtract max + log sum" to "subtract the max, then subtract the log of the sum".
-/
import Idealize.ShloMosaic.PureOps.Ideal
import Mathlib.Data.EReal.Operations
import Mathlib.Algebra.BigOperators.Group.Finset.Basic
import Mathlib.Order.Interval.Finset.Nat
import Mathlib.Data.Finset.Fold

noncomputable section

namespace Cert.Lse

open Idealize.ShloMosaic

/-- A maximum folded from -∞ over a finite family is the family's supremum. -/
theorem fold_max_bot_eq_sup {ι : Type*} (s : Finset ι) (f : ι → EReal) : s.fold max ⊥ f = s.sup f :=
  le_antisymm ((Finset.fold_max_le _).mpr ⟨bot_le, fun _ hx => Finset.le_sup hx⟩)
    (Finset.sup_le fun x hx => (Finset.le_fold_max _).mpr (Or.inr ⟨x, hx, le_rfl⟩))

/-- The exponential of an extended real is nonnegative. -/
theorem exp_nonneg (u : EReal) : 0 ≤ Ideal.exp u := by
  induction u using EReal.rec with
  | bot => simp
  | coe r => rw [Ideal.exp_coe]; exact_mod_cast (Real.exp_pos r).le
  | top => simp

/-- Rescaling from one level to a higher one: for x ≤ m ≤ m' < +∞, exp (x - m) · exp (m - m') = exp (x - m'). -/
theorem exp_rescale {x m m' : EReal} (hx : x ≤ m) (hm : m ≤ m') (hm' : m' ≠ ⊤) :
    Ideal.exp (x - m) * Ideal.exp (m - m') = Ideal.exp (x - m') := by
  induction m' using EReal.rec with
  | top => exact absurd rfl hm'
  | bot =>
    obtain rfl : m = ⊥ := le_bot_iff.mp hm
    obtain rfl : x = ⊥ := le_bot_iff.mp hx
    simp [EReal.bot_sub]
  | coe r' =>
    induction m using EReal.rec with
    | top => exact absurd hm (by simp)
    | bot =>
      obtain rfl : x = ⊥ := le_bot_iff.mp hx
      simp [EReal.bot_sub]
    | coe r =>
      induction x using EReal.rec with
      | top => exact absurd hx (by simp)
      | bot => simp [EReal.bot_sub]
      | coe s =>
        rw [← EReal.coe_sub, ← EReal.coe_sub, ← EReal.coe_sub, Ideal.exp_coe, Ideal.exp_coe, Ideal.exp_coe,
          ← EReal.coe_mul, ← Real.exp_add]
        congr 2
        ring

/-- A factor moves into a finite sum of nonnegative extended reals. -/
theorem sum_mul_of_nonneg {ι : Type*} (s : Finset ι) (a : ι → EReal) (k : EReal) (ha : ∀ j ∈ s, 0 ≤ a j) :
    (∑ j ∈ s, a j) * k = ∑ j ∈ s, a j * k := by
  classical
  induction s using Finset.induction_on with
  | empty => simp
  | insert j s hj ih =>
    have hs : ∀ i ∈ s, 0 ≤ a i := fun i hi => ha i (Finset.mem_insert_of_mem hi)
    rw [Finset.sum_insert hj, Finset.sum_insert hj,
      EReal.right_distrib_of_nonneg (ha j (Finset.mem_insert_self j s)) (Finset.sum_nonneg hs), ih hs]

/-- Subtracting level + L is subtracting the level and then L, for an entry at most the level and a level below +∞. -/
theorem sub_level_add {x m : EReal} (L : EReal) (hx : x ≤ m) (hm : m ≠ ⊤) : x - (m + L) = x - m - L := by
  induction m using EReal.rec with
  | top => exact absurd rfl hm
  | bot =>
    obtain rfl : x = ⊥ := le_bot_iff.mp hx
    simp [EReal.bot_sub]
  | coe r =>
    rw [sub_eq_add_neg, sub_eq_add_neg, sub_eq_add_neg,
      EReal.neg_add (Or.inl (EReal.coe_ne_bot r)) (Or.inl (EReal.coe_ne_top r)), sub_eq_add_neg, add_assoc]

section Running

variable {W : ℕ} (v : ℕ → Fin W → EReal)

/-- The level after the first n chunks. -/
def level : ℕ → EReal
  | 0 => ⊥
  | n + 1 => max (level n) (Finset.univ.sup (v n))

/-- The rescaled sum after the first n chunks. -/
def total : ℕ → EReal
  | 0 => 0
  | n + 1 => total n * Ideal.exp (level v n - level v (n + 1)) + ∑ q : Fin W, Ideal.exp (v n q - level v (n + 1))

/-- The level is the supremum of the entries of the chunks read. -/
theorem level_eq (n : ℕ) : level v n = (Finset.range n).sup fun c => Finset.univ.sup (v c) := by
  induction n with
  | zero => simp [level]
  | succ n ih => rw [level, ih, Finset.range_add_one, Finset.sup_insert, sup_comm]

theorem le_level {n c : ℕ} (hc : c < n) (q : Fin W) : v c q ≤ level v n := by
  rw [level_eq]
  exact le_trans (Finset.le_sup (f := v c) (Finset.mem_univ q))
    (Finset.le_sup (f := fun c => Finset.univ.sup (v c)) (Finset.mem_range.mpr hc))

theorem level_mono (n : ℕ) : level v n ≤ level v (n + 1) := le_max_left _ _

theorem level_ne_top (hv : ∀ c q, v c q ≠ ⊤) (n : ℕ) : level v n ≠ ⊤ := by
  rw [level_eq]
  refine ne_of_lt ((Finset.sup_lt_iff (by simp)).mpr fun c _ => (Finset.sup_lt_iff (by simp)).mpr fun q _ => ?_)
  exact lt_top_iff_ne_top.mpr (hv c q)

/-- The sum is Σ exp (entry - level) over the entries of the chunks read. -/
theorem total_eq (hv : ∀ c q, v c q ≠ ⊤) (n : ℕ) :
    total v n = ∑ c ∈ Finset.range n, ∑ q : Fin W, Ideal.exp (v c q - level v n) := by
  induction n with
  | zero => simp [total]
  | succ n ih =>
    rw [total, ih, Finset.sum_range_succ]
    congr 1
    rw [sum_mul_of_nonneg _ _ _ (fun c _ => Finset.sum_nonneg fun q _ => exp_nonneg _)]
    refine Finset.sum_congr rfl fun c hc => ?_
    rw [sum_mul_of_nonneg _ _ _ (fun q _ => exp_nonneg _)]
    refine Finset.sum_congr rfl fun q _ => ?_
    exact exp_rescale (le_level v (Finset.mem_range.mp hc) q) (level_mono v n) (level_ne_top v hv (n + 1))

/-- The level after n chunks depends on the first n chunks only. -/
theorem level_congr (v' : ℕ → Fin W → EReal) : ∀ n, (∀ c, c < n → ∀ q, v c q = v' c q) → level v n = level v' n
  | 0, _ => rfl
  | n + 1, h => by
    rw [level, level, level_congr v' n (fun c hc q => h c (by omega) q), show v n = v' n from funext (h n (by omega))]

/-- So does the sum. -/
theorem total_congr (v' : ℕ → Fin W → EReal) : ∀ n, (∀ c, c < n → ∀ q, v c q = v' c q) → total v n = total v' n
  | 0, _ => rfl
  | n + 1, h => by
    rw [total, total, total_congr v' n (fun c hc q => h c (by omega) q), level_congr v v' n (fun c hc q => h c (by omega) q),
      level_congr v v' (n + 1) h, show v n = v' n from funext (h n (by omega))]

end Running

end Cert.Lse

end
-- ==== Proof.KernelRead.lean ====
/-
  The body's arithmetic read at an index, on the extended reals.

  Row r of a chunk's block:  sim(r, q) = sqrt (max (Σ_k x(r,k)² + b(q) - 2 · Σ_k x(r,k) · y(q,k), ε)) · ninv(q);
  a chunk's row maximum is the supremum of the row's 2048 entries and its row sum their sum; so the level and sum columns
  at row r are the running pair of the row (the algebra module's `level` and `total`), and nrm(r) = level + log total.
  A block as loaded is the staged array's block: entry (q, k) of chunk c's rows of y is y(2048·c + q, k).
-/
import proofs.«155251_j71116068487480_2_alg».proof.Proof.KernelBlock
import proofs.«155251_j71116068487480_2_alg».proof.Proof.LibMxuDot
import proofs.«155251_j71116068487480_2_alg».proof.Proof.LibLseChunks
import Idealize.ShloMosaic.Lib.ValueLayout
import Idealize.ShloMosaic.PureOps.Ideal.Laws

set_option maxRecDepth 16384

noncomputable section

namespace Cert.KernelIdeal.Blk

open Cert.KernelIdeal Cert.KernelIdeal.Gen
open Idealize.ShloMosaic Idealize.ShloMosaic.TcCoe Idealize.ShloMosaic.ValueIdx Idealize.SL.Sem

variable {F : FTy → Type} [FloatOps F]

open Cert.KBodyLayout

/-- The word 0xFF800000 is -∞. -/
theorem ofBits_neg_inf : Ideal.ofBits .f32 0xFF800000#32 = ⊥ := by simp [Ideal.ofBits, Ideal.ieee]

/-- A sum along the lanes of an [a, b] matrix reads, at row o, the sum of that row. -/
theorem sumLanes_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (o : Fin a) :
    multiReduction .add [1] ⟨1, ![a]⟩ src 0x00000000#32 h hφ hacc (ix1 o) = ∑ f : Fin b, src (ix2 o f) :=
  (Ideal.multiReduction_add_single src _ h hφ hacc (ix1 o)).trans
    (Finset.sum_congr rfl fun f _ => congrArg src (lift1_eq h o f))

/-! ## The running pair's columns at a row -/

theorem cmax_apply (s : FVec Ideal S128x2048 .f32) (r : Fin 128) :
    cmax s (ix2 r (0 : Fin 1)) = Finset.univ.sup fun q : Fin 2048 => s (ix2 r q) := by
  unfold cmax
  rw [shapeCast_a_a1_apply]
  refine (maxLanes_apply s reduces_S128x2048_S128 (.inl rfl) rfl r).trans ?_
  rw [ofBits_neg_inf, Cert.Lse.fold_max_bot_eq_sup]

theorem csum_apply (e : FVec Ideal S128x2048 .f32) (r : Fin 128) :
    csum e (ix2 r (0 : Fin 1)) = ∑ q : Fin 2048, e (ix2 r q) := by
  unfold csum
  rw [shapeCast_a_a1_apply]
  exact sumLanes_apply e reduces_S128x2048_S128 (.inl rfl) rfl r

theorem mStep_apply (m : FVec Ideal S128x1 .f32) (s : FVec Ideal S128x2048 .f32) (r : Fin 128) :
    mStep m s (ix2 r (0 : Fin 1)) = max (m (ix2 r (0 : Fin 1))) (Finset.univ.sup fun q : Fin 2048 => s (ix2 r q)) := by
  unfold mStep
  rw [maximumf_apply, cmax_apply]

theorem lStep_apply (m l : FVec Ideal S128x1 .f32) (s : FVec Ideal S128x2048 .f32) (r : Fin 128) :
    lStep m l s (ix2 r (0 : Fin 1))
      = l (ix2 r (0 : Fin 1)) * Ideal.exp (m (ix2 r (0 : Fin 1)) - mStep m s (ix2 r (0 : Fin 1)))
        + ∑ q : Fin 2048, Ideal.exp (s (ix2 r q) - mStep m s (ix2 r (0 : Fin 1))) := by
  unfold lStep
  rw [addf_apply, mulf_apply, csum_apply]
  refine congrArg₂ (· + ·) rfl (Finset.sum_congr rfl fun q _ => ?_)
  show Ideal.exp ((subf s (broadcastTo S128x2048 (mStep m s) broadcasts_S128x1_S128x2048)) (ix2 r q)) = _
  rw [subf_apply, broadcastTo_a1_ab_apply]

/-- The level column at row r is the level of the row's running pair. -/
theorem mV_apply (S : ℕ → FVec Ideal S128x2048 .f32) (r : Fin 128) :
    ∀ n, mV S n (ix2 r (0 : Fin 1)) = Cert.Lse.level (fun c q => S c (ix2 r q)) n
  | 0 => ofBits_neg_inf
  | n + 1 => by
    show mStep (mV S n) (S n) (ix2 r (0 : Fin 1)) = max (Cert.Lse.level (fun c q => S c (ix2 r q)) n) (Finset.univ.sup fun q : Fin 2048 => S n (ix2 r q))
    rw [mStep_apply, mV_apply S r n]

/-- The sum column at row r is the rescaled sum of the row's running pair. -/
theorem lV_apply (S : ℕ → FVec Ideal S128x2048 .f32) (r : Fin 128) :
    ∀ n, lV S n (ix2 r (0 : Fin 1)) = Cert.Lse.total (fun c q => S c (ix2 r q)) n
  | 0 => Ideal.ofBits_zero_f32
  | n + 1 => by
    have hm : mStep (mV S n) (S n) (ix2 r (0 : Fin 1)) = Cert.Lse.level (fun c q => S c (ix2 r q)) (n + 1) := mV_apply S r (n + 1)
    show lStep (mV S n) (lV S n) (S n) (ix2 r (0 : Fin 1)) = _
    rw [lStep_apply, hm, mV_apply S r n, lV_apply S r n]
    rfl

/-- nrm at row r is level + log total of the row's running pair over the sixteen chunks. -/
theorem normV_apply (S : ℕ → FVec Ideal S128x2048 .f32) (r : Fin 128) :
    normV S (ix2 r (0 : Fin 1))
      = Cert.Lse.level (fun c q => S c (ix2 r q)) 16 + Ideal.log (Cert.Lse.total (fun c q => S c (ix2 r q)) 16) := by
  unfold normV
  rw [addf_apply, mV_apply]
  show _ + Ideal.log (lV S 16 (ix2 r (0 : Fin 1))) = _
  rw [lV_apply]

/-! ## A chunk's sim block at an index -/

/-- The squared length of row r of the x block, as a column entry. -/
theorem rowSq_apply (X : Vec Ideal S128x128 .f32) (r : Fin 128) :
    k0_pay2 X (ix2 r (0 : Fin 1)) = ∑ k : Fin 128, X (ix2 r k) * X (ix2 r k) := by
  unfold k0_pay2
  rw [shapeCast_a_a1_apply]
  exact sumLanes_apply (mulf X X) reduces_S128x128_S128 (.inl rfl) rfl r

theorem sim_apply (X : Vec Ideal S128x128 .f32) (Yc : Vec Ideal S2048x128 .f32) (Bc Nc : Vec Ideal S1x2048 .f32) (r : Fin 128) (q : Fin 2048) :
    sim X Yc Bc Nc (ix2 r q)
      = Ideal.sqrt (max ((∑ k : Fin 128, X (ix2 r k) * X (ix2 r k)) + Bc (ix2 (0 : Fin 1) q)
            - Ideal.ofBits .f32 0x40000000#32 * ∑ k : Fin 128, X (ix2 r k) * Yc (ix2 q k)) (Ideal.ofBits .f32 0x2B8CBCCC#32))
        * Nc (ix2 (0 : Fin 1) q) := by
  have hN : broadcastTo S128x2048 (shapeCast S1x2048 Nc shapeCasts_S1x2048_S1x2048) broadcasts_S1x2048_S128x2048 (ix2 r q) = Nc (ix2 (0 : Fin 1) q) := by
    rw [broadcastTo_1b_ab_apply, shapeCast_self]
  have hB : broadcastTo S128x2048 (shapeCast S1x2048 Bc shapeCasts_S1x2048_S1x2048) broadcasts_S1x2048_S128x2048 (ix2 r q) = Bc (ix2 (0 : Fin 1) q) := by
    rw [broadcastTo_1b_ab_apply, shapeCast_self]
  have hA : broadcastTo S128x2048 (k0_pay2 X) broadcasts_S128x1_S128x2048 (ix2 r q) = ∑ k : Fin 128, X (ix2 r k) * X (ix2 r k) := by
    rw [broadcastTo_a1_ab_apply, rowSq_apply]
  have hM : matmul (φ₁ := .f32) (φ₂ := .f32) dot_S128x128_S128x2048_S128x2048_1_0_0_1_n_n (some .fp32) X (transpose S128x2048 [1, 0] Yc transposes_S2048x128_p1_0_S128x2048)
      (constant (F := Ideal) S128x2048 .f32 0x00000000#32) (ix2 r q) = ∑ k : Fin 128, X (ix2 r k) * Yc (ix2 q k) := by
    rw [Cert.KBodyDot.plainMatmul_apply dot_S128x128_S128x2048_S128x2048_1_0_0_1_n_n rfl]
    refine Finset.sum_congr rfl fun k _ => ?_
    rw [transpose_apply [1, 0] Yc transposes_S2048x128_p1_0_S128x2048 (ix2 k q) (ix2 q k) (fun b => match b with
      | ⟨0, _⟩ => rfl
      | ⟨1, _⟩ => rfl)]
  show Ideal.sqrt (max (broadcastTo S128x2048 (k0_pay2 X) broadcasts_S128x1_S128x2048 (ix2 r q)
        + broadcastTo S128x2048 (shapeCast S1x2048 Bc shapeCasts_S1x2048_S1x2048) broadcasts_S1x2048_S128x2048 (ix2 r q)
        - Ideal.ofBits .f32 0x40000000#32 * matmul (φ₁ := .f32) (φ₂ := .f32) dot_S128x128_S128x2048_S128x2048_1_0_0_1_n_n (some .fp32) X (transpose S128x2048 [1, 0] Yc transposes_S2048x128_p1_0_S128x2048)
            (constant (F := Ideal) S128x2048 .f32 0x00000000#32) (ix2 r q)) (Ideal.ofBits .f32 0x2B8CBCCC#32))
      * broadcastTo S128x2048 (shapeCast S1x2048 Nc shapeCasts_S1x2048_S1x2048) broadcasts_S1x2048_S128x2048 (ix2 r q) = _
  rw [hN, hB, hA, hM]

/-! ## The blocks as loaded are the staged arrays' blocks -/

section Loads

variable (arg1 : Memref sig .tc .vmem S128x128 .f32) (harg1 : arg1.IsWhole) (arg2 : Memref sig .tc .vmem S32768x128 .f32) (harg2 : arg2.IsWhole)
  (arg3 : Memref sig .tc .vmem S1x32768 .f32) (harg3 : arg3.IsWhole) (arg4 : Memref sig .tc .vmem S1x32768 .f32) (harg4 : arg4.IsWhole)
  (x0 : Vec Ideal S128x128 .f32) (x1 : Vec Ideal S32768x128 .f32) (x2 : Vec Ideal S1x32768 .f32) (x3 : Vec Ideal S1x32768 .f32)

theorem zero2 : (![0, 0] : Fin 2 → ℕ) = fun _ => 0 := funext fun a => by
  match a with
  | ⟨0, _⟩ => rfl
  | ⟨1, _⟩ => rfl

theorem ldX_eq : ldX arg1 harg1 x0 = x0 := by
  unfold ldX
  rw [View.readAt_eq_ld, harg1.read_unread]
  exact View.ld_unit_zero (S := S128x128) zero2 _ x0

theorem ldY_apply (c : ℕ) (hc : c < 16) (q : Fin 2048) (k : Fin 128) :
    ldY arg2 harg2 x1 c hc (ix2 q k) = x1 (ix2 (⟨2048 * c + q.val, by have := q.isLt; omega⟩ : Fin 32768) k) := by
  unfold ldY
  rw [View.readAt_eq_ld, harg2.read_unread]
  refine congrArg x1 (funext fun a => Fin.ext ?_)
  match a with
  | ⟨0, _⟩ => show 2048 * c + 1 * q.val = 2048 * c + q.val; omega
  | ⟨1, _⟩ => show 0 + 1 * k.val = k.val; omega

theorem ldB_apply (c : ℕ) (hc : c < 16) (q : Fin 2048) :
    ldB arg3 harg3 x2 c hc (ix2 (0 : Fin 1) q) = x2 (ix2 (0 : Fin 1) (⟨2048 * c + q.val, by have := q.isLt; omega⟩ : Fin 32768)) := by
  unfold ldB
  rw [View.readAt_eq_ld, harg3.read_unread]
  refine congrArg x2 (funext fun a => Fin.ext ?_)
  match a with
  | ⟨0, _⟩ => rfl
  | ⟨1, _⟩ => show 2048 * c + 1 * q.val = 2048 * c + q.val; omega

theorem ldN_apply (c : ℕ) (hc : c < 16) (q : Fin 2048) :
    ldN arg4 harg4 x3 c hc (ix2 (0 : Fin 1) q) = x3 (ix2 (0 : Fin 1) (⟨2048 * c + q.val, by have := q.isLt; omega⟩ : Fin 32768)) := by
  unfold ldN
  rw [View.readAt_eq_ld, harg4.read_unread]
  refine congrArg x3 (funext fun a => Fin.ext ?_)
  match a with
  | ⟨0, _⟩ => rfl
  | ⟨1, _⟩ => show 2048 * c + 1 * q.val = 2048 * c + q.val; omega

/-- Chunk c's sim block at (r, q), from the staged blocks: column 2048·c + q of the block's row r. -/
theorem sims_apply (c : ℕ) (hc : c < 16) (r : Fin 128) (q : Fin 2048) :
    sims arg1 harg1 arg2 harg2 arg3 harg3 arg4 harg4 x0 x1 x2 x3 c (ix2 r q)
      = Ideal.sqrt (max ((∑ k : Fin 128, x0 (ix2 r k) * x0 (ix2 r k)) + x2 (ix2 (0 : Fin 1) (⟨2048 * c + q.val, by have := q.isLt; omega⟩ : Fin 32768))
            - Ideal.ofBits .f32 0x40000000#32 * ∑ k : Fin 128, x0 (ix2 r k) * x1 (ix2 (⟨2048 * c + q.val, by have := q.isLt; omega⟩ : Fin 32768) k))
            (Ideal.ofBits .f32 0x2B8CBCCC#32))
        * x3 (ix2 (0 : Fin 1) (⟨2048 * c + q.val, by have := q.isLt; omega⟩ : Fin 32768)) := by
  unfold sims
  rw [dif_pos hc, sim_apply, ldX_eq, ldB_apply, ldN_apply]
  simp only [ldY_apply]

end Loads

end Cert.KernelIdeal.Blk

end
-- ==== Proof.Args.lean ====
/-
  The four input blocks of a grid point, as entries of the arguments.  At point t the x window holds rows 128·t … of x;
  the y window holds all of y; the third window holds b(j) = 0 + Σ_k y(j,k)², computed on the host before the region and
  laid out as a [1, 32768] row; the fourth holds ninv(j) = (-1)/std(j), likewise.
-/
import proofs.«155251_j71116068487480_2_alg».proof.Proof.Gen.KernelIdeal.Frame
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«155251_j71116068487480_2_alg».proof.Proof.LibKernelLayout

set_option maxRecDepth 16384

noncomputable section

namespace Cert.KernelIdeal.Args

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The argument arrays, as functions of an index. -/
abbrev aX : S4096x128.Idx → EReal := m ((c : Thread nD τ).loc main_arg0)
abbrev aY : S32768x128.Idx → EReal := m ((c : Thread nD τ).loc main_arg1)
abbrev aS : S32768.Idx → EReal := m ((c : Thread nD τ).loc main_arg2)

/-- The block index of each window at each of the 32 grid points: the x and output windows move with the point along the
    rows, the other three stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The host's two rows -/

theorem V_b_eq : (V m c main_v2 : S1x32768.Idx → EReal)
    = shapeCast S1x32768 (Host.reduceAdd (F := Ideal) (mulf (m ((c : Thread nD τ).loc main_arg1)) (m ((c : Thread nD τ).loc main_arg1)))
        (constant S_ .f32 0x00000000#32) reducesTo_S32768x128_S32768_d1 h_S_) shapeCasts_S32768_S1x32768 := by
  dsimp only [Gen.V, Gen.hostOps0]
  after_results
  rfl

theorem V_n_eq : (V m c main_v5 : S1x32768.Idx → EReal)
    = shapeCast S1x32768 (Host.divf (F := Ideal) (broadcastInDim S32768 ![] bcast_S_S32768 (constant S_ .f32 0xBF800000#32))
        (m ((c : Thread nD τ).loc main_arg2))) shapeCasts_S32768_S1x32768 := by
  dsimp only [Gen.V, Gen.hostOps0]
  after_results
  rfl

/-- b(j) = 0 + Σ_k y(j,k)². -/
theorem V_b_apply (j : Fin 32768) :
    (V m c main_v2 : S1x32768.Idx → EReal) (ix2 (0 : Fin 1) j)
      = Ideal.ofBits .f32 0x00000000#32
        + ∑ k : Fin 128, aY m c (ix2 j k) * aY m c (ix2 j k) := by
  rw [V_b_eq, shapeCast_a_1a_apply]
  show Host.reduceAdd (F := Ideal) (mulf (aY m c) (aY m c)) (constant S_ .f32 0x00000000#32) reducesTo_S32768x128_S32768_d1 h_S_ (ix1 j) = _
  generalize aY m c = Y
  simp only [Host.reduceAdd, Ideal.hostReduceAdd_def]
  rw [Ideal.hostReduceAdd_single reducesTo_S32768x128_S32768_d1 (by decide)]
  refine congrArg₂ (· + ·) rfl (Finset.sum_congr rfl fun k _ => ?_)
  exact congrArg (fun i => Y i * Y i) (funext fun a => Fin.ext (by
    match a with
    | ⟨0, _⟩ => rfl
    | ⟨1, _⟩ => rfl))

/-- ninv(j) = (-1)/std(j). -/
theorem V_n_apply (j : Fin 32768) :
    (V m c main_v5 : S1x32768.Idx → EReal) (ix2 (0 : Fin 1) j)
      = Ideal.div (Ideal.ofBits .f32 0xBF800000#32) (aS m c (ix1 j)) := by
  rw [V_n_eq, shapeCast_a_1a_apply]
  show Ideal.div (broadcastInDim S32768 ![] bcast_S_S32768 (constant (F := Ideal) S_ .f32 0xBF800000#32) (ix1 j)) _ = _
  rw [broadcastInDim_scalar_apply]
  rfl

/-! ## The blocks -/

theorem iblk0_apply (t : Fin cfg0.N) (r k : Fin 128) :
    iblk m c 0 t (ix2 r k) = aX m c (ix2 (⟨128 * t.val + r.val, by have ht : t.val < 32 := t.isLt; have := r.isLt; show _ < 4096; omega⟩ : Fin 4096) k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 128 + 1 * k.val = k.val; omega

theorem iblk1_apply (t : Fin cfg0.N) (j : Fin 32768) (k : Fin 128) :
    iblk m c 1 t (ix2 j k) = aY m c (ix2 j k) := by
  obtain ⟨-, -, e0, e1, -⟩ := idx_facts t
  show V m c main_arg1 (((cfg0.win 1).blk t).view.emb (ix2 j k)) = _
  rw [V_main_arg1]
  refine congrArg _ (funext fun a => Fin.ext ?_)
  match a with
  | ⟨0, _⟩ => show win0_1.index t (0 : Fin 2) * 32768 + 1 * j.val = j.val; omega
  | ⟨1, _⟩ => show win0_1.index t (1 : Fin 2) * 128 + 1 * k.val = k.val; omega

theorem iblk2_apply (t : Fin cfg0.N) (j : Fin 32768) :
    iblk m c 2 t (ix2 (0 : Fin 1) j) = (V m c main_v2 : S1x32768.Idx → EReal) (ix2 (0 : Fin 1) j) := by
  obtain ⟨-, -, -, -, e0, e1, -⟩ := idx_facts t
  show V m c main_v2 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 32768 + 1 * j.val = j.val; omega

theorem iblk3_apply (t : Fin cfg0.N) (j : Fin 32768) :
    iblk m c 3 t (ix2 (0 : Fin 1) j) = (V m c main_v5 : S1x32768.Idx → EReal) (ix2 (0 : Fin 1) j) := by
  obtain ⟨-, -, -, -, -, -, e0, e1, -⟩ := idx_facts t
  show V m c main_v5 (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 32768 + 1 * j.val = j.val; omega

end Cert.KernelIdeal.Args

end
-- ==== Proof.LibTRef.lean ====
/-
  A typed reference to a buffer carries a value of the reference's stated type to the buffer's own contents type and
  back along the equation of the two types. Carrying there and back is the identity, whatever the buffer is: the
  statement needs no knowledge of the program's buffer table.
-/
import Idealize.ShloMosaic.Lib.StableHlo

namespace Cert.TRefLemmas

open Idealize.ShloMosaic Idealize.ShloMosaic.StableHlo

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.TRefLemmas
-- ==== Proof.RefRead.lean ====
/-
  The reference read at an index, on the extended reals.

  sim(I, J) = (-(sqrt (max (Σ_k x(I,k)² + Σ_k y(J,k)² - 2 · Σ_k x(I,k) · y(J,k), ε)))) / std(J), and the result at (I, J) is
  (sim(I, J) - M) - log (Σ_k exp (sim(I, k) - M)) with M the maximum of row I of sim (folded from -∞).
-/
import proofs.«155251_j71116068487480_2_alg».proof.Proof.ReadPatched
import proofs.«155251_j71116068487480_2_alg».proof.Proof.LibKernelLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

variable (x : (⟨S4096x128, .f32⟩ : BufTy).Contents (Elt Ideal)) (y : (⟨S32768x128, .f32⟩ : BufTy).Contents (Elt Ideal))
  (s : (⟨S32768, .f32⟩ : BufTy).Contents (Elt Ideal))

/-- The reference's sim at (I, J). -/
def simRef (I : Fin 4096) (J : Fin 32768) : EReal :=
  Ideal.div (-(Ideal.sqrt (max
      ((Ideal.ofBits .f32 0x00000000#32 + ∑ k : Fin 128, x (ix2 I k) * x (ix2 I k))
        + (Ideal.ofBits .f32 0x00000000#32 + ∑ k : Fin 128, y (ix2 J k) * y (ix2 J k))
        - Ideal.ofBits .f32 0x40000000#32 * ∑ k : Fin 128, x (ix2 I k) * y (ix2 J k))
      (Ideal.ofBits .f32 0x2B8CBCCC#32)))) (s (ix1 J))

theorem v20_apply (I : Fin 4096) (J : Fin 32768) : val_main_v20 (F := Ideal) x y s (ix2 I J) = simRef x y s I J := by
  have eA : ∀ k : Fin 128, idx_main_v3 (idx_main_v6 (idx_main_v8 (ix2 I J))) k = ix2 I k := fun k => funext fun a => by
    match a with
    | ⟨0, _⟩ => rfl
    | ⟨1, _⟩ => rfl
  have eB : ∀ k : Fin 128, idx_main_v5 (idx_main_v7 (idx_main_v9 (ix2 I J))) k = ix2 J k := fun k => funext fun a => by
    match a with
    | ⟨0, _⟩ => rfl
    | ⟨1, _⟩ => rfl
  have eL : ∀ k : Fin 128, lidx_main_v1 (ix2 I J) k = ix2 I k := fun k => funext fun a => by
    match a with
    | ⟨0, _⟩ => rfl
    | ⟨1, _⟩ => rfl
  have eR : ∀ k : Fin 128, idx_main_v0 (ridx_main_v1 (ix2 I J) k) = ix2 J k := fun k => funext fun a => by
    match a with
    | ⟨0, _⟩ => rfl
    | ⟨1, _⟩ => rfl
  have eS : idx_main_v18 (idx_main_v19 (ix2 I J)) = ix1 J := funext fun a => by
    match a with
    | ⟨0, _⟩ => rfl
  rw [val_main_v20_apply, val_main_v17_apply, val_main_v16_apply, val_main_v15_apply, val_main_v13_apply, val_main_v10_apply,
    val_main_v8_apply, val_main_v6_apply, val_main_v3_apply, val_main_v9_apply, val_main_v7_apply, val_main_v5_apply,
    val_main_v12_apply, val_main_v11_apply, val_main_v1_apply, val_main_v14_apply, val_main_v19_apply, val_main_v18_apply]
  simp only [val_main_v2_apply, val_main_v4_apply, val_main_v0_apply, val_main_cst_apply, val_main_cst_0_apply, val_main_cst_1_apply,
    val_main_cst_2_apply, eA, eB, eL, eR, eS]
  rfl

/-- The maximum of row I of sim, as the reference folds it. -/
def rowMax (I : Fin 4096) : EReal :=
  max (Ideal.ofBits .f32 0xFF800000#32)
    ((Finset.univ : Finset (Fin 32768)).fold max (Ideal.ofBits .f32 0xFF800000#32) fun k => simRef x y s I k)

theorem v4c_apply (I : Fin 4096) (J : Fin 32768) : val_main_call0_v4 (F := Ideal) x y s (ix2 I J) = rowMax x y s I := by
  have hred : S4096x32768.Reduces [1] S4096 := by decide
  have e3 : idx_main_call0_v3 (idx_main_call0_v4 (ix2 I J)) = ix1 I := funext fun a => by
    match a with
    | ⟨0, _⟩ => rfl
  rw [val_main_call0_v4_apply, val_main_call0_v3_apply, val_main_call0_v2_apply, val_main_call0_v1_apply, val_main_call0_cst_0_apply, e3]
  unfold rowMax
  refine congrArg (max _) ?_
  unfold val_main_call0_v0
  rw [Host.reduce_eq_fold_single FloatOps.maximumf _ _ reducesTo_S4096x32768_S4096_d1 hred h_S_ (ix1 I)]
  refine congrArg₂ (fun b f => Finset.fold max b f Finset.univ) rfl (funext fun (k : Fin 32768) => ?_)
  show val_main_v20 (F := Ideal) x y s (hred.lift (ix1 I) k) = _
  rewrite [Cert.KBodyLayout.lift1_eq hred I k]
  exact v20_apply x y s I k

/-- The last three operations, over any two equal sums. -/
theorem sub_sub_log_congr (a b S S' : EReal) (h : S = S') :
    FloatOps.subf (F := Ideal) (φ := .f32) (FloatOps.subf (F := Ideal) (φ := .f32) a b)
        (FloatOps.hostUnary (F := Ideal) (φ := .f32) .log (FloatOps.ofBits (F := Ideal) .f32 0x00000000#32 + S))
      = a - b - Ideal.log (Ideal.ofBits .f32 0x00000000#32 + S') := by
  subst h
  rfl

/-- THE REFERENCE AT (I, J): (sim - M) - log (0 + Σ_k exp (sim(I, k) - M)). -/
theorem v21_apply (I : Fin 4096) (J : Fin 32768) :
    val_main_v21 (F := Ideal) x y s (ix2 I J)
      = simRef x y s I J - rowMax x y s I
        - Ideal.log (Ideal.ofBits .f32 0x00000000#32 + ∑ k : Fin 32768, Ideal.exp (simRef x y s I k - rowMax x y s I)) := by
  have e8 : idx_main_call0_v8 (idx_main_call0_v10 (ix2 I J)) = ix1 I := funext fun a => by
    match a with
    | ⟨0, _⟩ => rfl
  have e7 : ∀ k : Fin 32768, idx_main_call0_v7 (ix1 I) k = ix2 I k := fun k => funext fun a => by
    match a with
    | ⟨0, _⟩ => rfl
    | ⟨1, _⟩ => rfl
  rewrite [val_main_v21_apply, val_main_call0_v5_apply, v20_apply, v4c_apply, val_main_call0_v10_apply, val_main_call0_v9_apply,
    val_main_call0_v8_apply, e8, val_main_call0_v7_apply, val_main_call0_cst_1_apply]
  refine sub_sub_log_congr _ _ _ _ (Finset.sum_congr rfl fun k _ => ?_)
  rewrite [e7 k, val_main_call0_v6_apply, val_main_call0_v5_apply, v20_apply, v4c_apply]
  rfl

end Cert.ReferenceIdeal.RefValue

end
-- ==== Proof.LseRow.lean ====
/-
  A row of 32768 entries read as sixteen chunks of 2048: the sum and the supremum over the row are those over the
  chunks, and so the running pair of the chunked pass ends at the row's supremum M and at Σ exp (x - M) over the whole
  row.  Hence "entry minus (level + log sum)" after the sixteen chunks is "entry minus M, minus log Σ exp (x - M)",
  for every row whose entries are below +∞ (entries equal to -∞ allowed).
-/
import proofs.«155251_j71116068487480_2_alg».proof.Proof.LibLseChunks
import Mathlib.Logic.Equiv.Fin.Basic
import Mathlib.Algebra.BigOperators.Fin
import Mathlib.Algebra.BigOperators.Group.Finset.Sigma

noncomputable section

namespace Cert.Lse

open Idealize.ShloMosaic

/-- Column 2048·c + q of a row of 32768 (reduced mod 32768, so that it is a column for every c). -/
def col (c : ℕ) (q : Fin 2048) : Fin 32768 := ⟨(2048 * c + q.val) % 32768, Nat.mod_lt _ (by norm_num)⟩

theorem col_val {c : ℕ} (hc : c < 16) (q : Fin 2048) : (col c q).val = 2048 * c + q.val := by
  have := q.isLt
  show (2048 * c + q.val) % 32768 = _
  exact Nat.mod_eq_of_lt (by omega)

/-- Every column is column q of chunk c for c = k / 2048, q = k % 2048. -/
theorem col_div_mod (k : Fin 32768) : col (k.val / 2048) ⟨k.val % 2048, Nat.mod_lt _ (by norm_num)⟩ = k := by
  have := k.isLt
  refine Fin.ext ?_
  rw [col_val (by omega)]
  show 2048 * (k.val / 2048) + k.val % 2048 = k.val
  omega

/-- A sum over the row is the sum over the chunks of the sums over each chunk. -/
theorem sum_chunks (f : Fin 32768 → EReal) :
    ∑ k, f k = ∑ c ∈ Finset.range 16, ∑ q : Fin 2048, f (col c q) := by
  rw [Finset.sum_range (fun c => ∑ q : Fin 2048, f (col c q)), ← Fintype.sum_prod_type' (fun (c : Fin 16) (q : Fin 2048) => f (col c.val q))]
  refine (Fintype.sum_equiv (finProdFinEquiv : Fin 16 × Fin 2048 ≃ Fin 32768) _ _ fun p => ?_).symm
  refine congrArg f (Fin.ext ?_)
  rw [col_val p.1.isLt]
  show 2048 * p.1.val + p.2.val = p.2.val + 2048 * p.1.val
  omega

/-- The supremum over the row is the supremum over the chunks of the suprema of each chunk. -/
theorem sup_chunks (f : Fin 32768 → EReal) :
    Finset.univ.sup f = (Finset.range 16).sup fun c => Finset.univ.sup fun q : Fin 2048 => f (col c q) := by
  refine le_antisymm (Finset.sup_le fun k _ => ?_) (Finset.sup_le fun c _ => Finset.sup_le fun q _ => Finset.le_sup (Finset.mem_univ _))
  have hk := k.isLt
  calc f k = f (col (k.val / 2048) ⟨k.val % 2048, Nat.mod_lt _ (by norm_num)⟩) := by rw [col_div_mod]
    _ ≤ Finset.univ.sup fun q : Fin 2048 => f (col (k.val / 2048) q) :=
        Finset.le_sup (f := fun q : Fin 2048 => f (col (k.val / 2048) q)) (Finset.mem_univ _)
    _ ≤ _ := Finset.le_sup (f := fun c => Finset.univ.sup fun q : Fin 2048 => f (col c q)) (Finset.mem_range.mpr (by omega))

/-- THE TWO PASSES AGREE: for a row w below +∞, with the running pair taken over its sixteen chunks, at every column
    w - (level + log total) = (w - M) - log Σ exp (w - M), M the row's supremum. -/
theorem online_eq_two_pass (w : Fin 32768 → EReal) (hw : ∀ k, w k ≠ ⊤) (k : Fin 32768) :
    w k - (level (fun c q => w (col c q)) 16 + Ideal.log (total (fun c q => w (col c q)) 16))
      = w k - Finset.univ.sup w - Ideal.log (∑ j, Ideal.exp (w j - Finset.univ.sup w)) := by
  have hl : level (fun c q => w (col c q)) 16 = Finset.univ.sup w := by rw [level_eq, sup_chunks]
  have hne : Finset.univ.sup w ≠ ⊤ := hl ▸ level_ne_top _ (fun c q => hw _) 16
  have ht : total (fun c q => w (col c q)) 16 = ∑ j, Ideal.exp (w j - Finset.univ.sup w) := by
    rw [total_eq _ (fun c q => hw _) 16, hl, sum_chunks]
  rw [hl, ht]
  exact sub_level_add _ (Finset.le_sup (f := w) (Finset.mem_univ k)) hne

end Cert.Lse

end
-- ==== Proof.SimBridge.lean ====
/-
  The one place the two programs differ before the log-softmax: the kernel multiplies dist by ninv = (-1)/std, the
  reference divides -dist by std.  For a positive real dist and ANY std these agree on the extended reals: at std = 0 both
  are -∞ ((-1)/0 = -∞ and dist · -∞ = -∞; (-dist)/0 = -∞), elsewhere both are -(dist · std⁻¹).  And the value is never
  +∞.  dist = sqrt (max (t, ε)) is a positive real as soon as t is real, which it is for real x and y.
-/
import Idealize.ShloMosaic.PureOps.Ideal
import Idealize.ShloMosaic.PureOps.Ideal.Laws
import Mathlib.Data.EReal.Inv

noncomputable section

namespace Cert.SimBridge

open Idealize.ShloMosaic

/-! ## The float words that occur -/

theorem two_eq : Ideal.ofBits .f32 0x40000000#32 = ((2 : ℝ) : EReal) := by
  simp [Ideal.ofBits, Ideal.ieee, -EReal.coe_mul]; norm_num

theorem neg_one_eq : Ideal.ofBits .f32 0xBF800000#32 = ((-1 : ℝ) : EReal) := by
  simp [Ideal.ofBits, Ideal.ieee, -EReal.coe_mul, -EReal.coe_neg]; norm_num

/-- ε, the word 0x2B8CBCCC, is the positive real 9223372 · 2⁻⁶³. -/
theorem eps_eq : Ideal.ofBits .f32 0x2B8CBCCC#32 = (((9223372 : ℝ) * (2 : ℝ) ^ (-63 : ℤ) : ℝ) : EReal) := by
  simp [Ideal.ofBits, Ideal.ieee, -EReal.coe_mul]

theorem eps_pos : (0 : ℝ) < (9223372 : ℝ) * (2 : ℝ) ^ (-63 : ℤ) := by positivity

/-! ## Sums of reals stay real -/

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The squared distance of a real row x and a real row y (as the programs spell it) is a real. -/
theorem dist2_real {n : ℕ} (a b : Fin n → EReal) (ha : ∀ k, ∃ r : ℝ, a k = (r : EReal)) (hb : ∀ k, ∃ r : ℝ, b k = (r : EReal)) :
    ∃ T : ℝ, (∑ k, a k * a k) + (∑ k, b k * b k) - Ideal.ofBits .f32 0x40000000#32 * ∑ k, a k * b k = (T : EReal) := by
  choose ar har using ha
  choose br hbr using hb
  refine ⟨(∑ k, ar k * ar k) + (∑ k, br k * br k) - 2 * ∑ k, ar k * br k, ?_⟩
  simp only [har, hbr, two_eq, ← EReal.coe_mul, coe_sum, ← EReal.coe_add, ← EReal.coe_sub]

/-- dist = sqrt (max (t, ε)) is a positive real for real t. -/
theorem dist_pos_real (T : ℝ) :
    ∃ d : ℝ, 0 < d ∧ Ideal.sqrt (max (T : EReal) (Ideal.ofBits .f32 0x2B8CBCCC#32)) = (d : EReal) := by
  have hε := eps_pos
  have hm : (0 : ℝ) < max T ((9223372 : ℝ) * (2 : ℝ) ^ (-63 : ℤ)) := lt_of_lt_of_le hε (le_max_right _ _)
  refine ⟨Real.sqrt (max T ((9223372 : ℝ) * (2 : ℝ) ^ (-63 : ℤ))), Real.sqrt_pos.mpr hm, ?_⟩
  have hmax : max (T : EReal) (((9223372 : ℝ) * (2 : ℝ) ^ (-63 : ℤ) : ℝ) : EReal)
      = ((max T ((9223372 : ℝ) * (2 : ℝ) ^ (-63 : ℤ)) : ℝ) : EReal) := (EReal.coe_strictMono.monotone.map_max).symm
  rw [eps_eq, hmax, Ideal.sqrt_coe, if_neg (not_lt.mpr hm.le)]

/-! ## dist · ((-1)/σ) = (-dist)/σ, and it is never +∞ -/

theorem mul_neg_inv_eq (d : ℝ) (hd : 0 < d) (σ : EReal) :
    (d : EReal) * Ideal.div (Ideal.ofBits .f32 0xBF800000#32) σ = Ideal.div (-(d : EReal)) σ := by
  rw [neg_one_eq]
  unfold Ideal.div
  have h1 : ¬ (0 : EReal) < ((-1 : ℝ) : EReal) := by
    rw [not_lt]; exact_mod_cast (by norm_num : (-1 : ℝ) ≤ 0)
  have h2 : ¬ (0 : EReal) < -(d : EReal) := by
    rw [not_lt, ← EReal.coe_neg]; exact_mod_cast (by linarith : -d ≤ 0)
  by_cases hσ : σ = 0
  · rw [if_pos hσ, if_pos hσ, if_neg h1, if_neg h2]
    exact EReal.coe_mul_bot_of_pos hd
  · rw [if_neg hσ, if_neg hσ, ← mul_assoc, ← EReal.coe_mul, mul_neg_one, EReal.coe_neg]

theorem div_neg_ne_top (d : ℝ) (hd : 0 < d) (σ : EReal) : Ideal.div (-(d : EReal)) σ ≠ ⊤ := by
  unfold Ideal.div
  have h2 : ¬ (0 : EReal) < -(d : EReal) := by
    rw [not_lt, ← EReal.coe_neg]; exact_mod_cast (by linarith : -d ≤ 0)
  by_cases hσ : σ = 0
  · rw [if_pos hσ, if_neg h2]; exact bot_ne_top
  · rw [if_neg hσ]
    induction σ using EReal.rec with
    | bot => simp
    | coe r => rw [← EReal.coe_neg, ← EReal.coe_inv, ← EReal.coe_mul]; exact EReal.coe_ne_top _
    | top => simp

end Cert.SimBridge

end
-- ==== Proof.Finite.lean ====
/-
  From the precondition "every float input is finite" to what the proof uses of it: every entry of x and every entry of y
  is a real number.  (|v| < +∞ on the extended reals says v is neither +∞ nor -∞.)
-/
import proofs.«155251_j71116068487480_2_alg».proof.Defs
import proofs.«155251_j71116068487480_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.Finite

open Idealize.ShloMosaic Cert.Pre_finite_inputs

instance : Subsingleton Cert.Pre_finite_inputs.S_.Idx := ⟨fun a b => funext fun d => d.elim0⟩

/-- The word 0x7F800000 is +∞. -/
theorem ofBits_inf : Ideal.ofBits .f32 0x7F800000#32 = ⊤ := by simp [Ideal.ofBits, Ideal.ieee]

/-- |v| < +∞, as the comparison's bit, makes v a real. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | coe r => exact ⟨r, rfl⟩
  | top => simp [Ideal.cmp] at h

/-- Under the precondition every entry of x and of y is a real. -/
theorem entries_real (X : FVec Ideal S4096x128 .f32) (Y : FVec Ideal S32768x128 .f32) (Sd : FVec Ideal S32768 .f32)
    (h : fn (F := Ideal) X Y Sd = fun _ => 1#1) :
    (∀ i, ∃ r : ℝ, X i = (r : EReal)) ∧ (∀ i, ∃ r : ℝ, Y i = (r : EReal)) := by
  have h0 := congrFun h ValueIdx.ix0
  dsimp only [fn] at h0
  obtain ⟨h12, h3⟩ := IntOp.andi_eq_one.mp h0
  obtain ⟨h1, h2⟩ := IntOp.andi_eq_one.mp h12
  exact ⟨fun i => real_of_abs_lt _ (Host.reduce_andi_all _ _ _ _ _ h1 i), fun i => real_of_abs_lt _ (Host.reduce_andi_all _ _ _ _ _ h2 i)⟩

end Cert.Finite

end
-- ==== Proof.Final.lean ====
/-
  The two programs compute one function.

  Fix a grid point t and a row r of its block; the row of the whole array is I = 128·t + r.  Write w(k) for the reference's
  sim(I, k).  Chunk c of the kernel's block holds, at (r, q), the kernel's sim at column 2048·c + q, which is w there (the
  kernel multiplies dist by (-1)/std where the reference divides -dist by std: one value, for real x and y and any std); so
  the kernel's level and sum columns at row r are the running pair of the row w over its sixteen chunks, and what the body
  leaves at (r, j) is w(j) - (level + log sum).  By the algebra of the running pair that is (w(j) - M) - log Σ exp (w - M),
  the reference's value at (I, j).  The blocks of the 32 grid points tile the array, so the kernel's output array is the
  reference's result.
-/
import proofs.«155251_j71116068487480_2_alg».proof.Defs
import proofs.«155251_j71116068487480_2_alg».proof.Proof.Gen.Kernel.Frame
import proofs.«155251_j71116068487480_2_alg».proof.Proof.Gen.KernelIdeal.Value
import proofs.«155251_j71116068487480_2_alg».proof.Proof.KernelCanon
import proofs.«155251_j71116068487480_2_alg».proof.Proof.KernelRead
import proofs.«155251_j71116068487480_2_alg».proof.Proof.Args
import proofs.«155251_j71116068487480_2_alg».proof.Proof.RefRead
import proofs.«155251_j71116068487480_2_alg».proof.Proof.LseRow
import proofs.«155251_j71116068487480_2_alg».proof.Proof.SimBridge
import proofs.«155251_j71116068487480_2_alg».proof.Proof.Finite

set_option maxRecDepth 16384

noncomputable section

namespace Cert.Final

open Idealize.ShloMosaic Idealize.ShloMosaic.TcCoe Idealize.ShloMosaic.ValueIdx Idealize.SL.Sem
open Cert.KernelIdeal Cert.KernelIdeal.Gen Cert.KernelIdeal.Blk Cert.KernelIdeal.Args
open Cert.ReferenceIdeal.RefValue (simRef rowMax)

/-! ## One entry of sim -/

/-- The kernel's sim at (I, J) is the reference's, for real x and y; and it is never +∞. -/
theorem sim_eq (X : S4096x128.Idx → EReal) (Y : S32768x128.Idx → EReal) (Sd : S32768.Idx → EReal)
    (hX : ∀ i, ∃ r : ℝ, X i = (r : EReal)) (hY : ∀ i, ∃ r : ℝ, Y i = (r : EReal)) (I : Fin 4096) (J : Fin 32768) :
    Ideal.sqrt (max ((∑ k : Fin 128, X (ix2 I k) * X (ix2 I k))
          + (Ideal.ofBits .f32 0x00000000#32 + ∑ k : Fin 128, Y (ix2 J k) * Y (ix2 J k))
          - Ideal.ofBits .f32 0x40000000#32 * ∑ k : Fin 128, X (ix2 I k) * Y (ix2 J k)) (Ideal.ofBits .f32 0x2B8CBCCC#32))
        * Ideal.div (Ideal.ofBits .f32 0xBF800000#32) (Sd (ix1 J))
      = simRef X Y Sd I J ∧ simRef X Y Sd I J ≠ ⊤ := by
  unfold simRef
  simp only [Ideal.ofBits_zero_f32, zero_add]
  obtain ⟨T, hT⟩ := Cert.SimBridge.dist2_real (fun k => X (ix2 I k)) (fun k => Y (ix2 J k)) (fun k => hX _) (fun k => hY _)
  rw [hT]
  obtain ⟨d, hd, hdE⟩ := Cert.SimBridge.dist_pos_real T
  rw [hdE]
  exact ⟨Cert.SimBridge.mul_neg_inv_eq d hd _, Cert.SimBridge.div_neg_ne_top d hd _⟩

/-! ## One row -/

/-- A row of the block against the row w of the reference's sim: if chunk c of the block holds w at the chunk's columns,
    then sim - nrm at column j is the reference's two-pass value at j. -/
theorem row_eq (w : Fin 32768 → EReal) (hw : ∀ k, w k ≠ ⊤) (S : ℕ → FVec Ideal S128x2048 .f32) (r : Fin 128)
    (hS : ∀ c, c < 16 → ∀ q : Fin 2048, S c (ix2 r q) = w (Cert.Lse.col c q)) (j : Fin 32768) :
    (S (j.val / 2048) (ix2 r (⟨j.val % 2048, Nat.mod_lt _ (by norm_num)⟩ : Fin 2048)) : EReal) - normV S (ix2 r (0 : Fin 1))
      = w j - max (Ideal.ofBits .f32 0xFF800000#32) ((Finset.univ : Finset (Fin 32768)).fold max (Ideal.ofBits .f32 0xFF800000#32) w)
        - Ideal.log (Ideal.ofBits .f32 0x00000000#32
            + ∑ k : Fin 32768, Ideal.exp (w k - max (Ideal.ofBits .f32 0xFF800000#32) ((Finset.univ : Finset (Fin 32768)).fold max (Ideal.ofBits .f32 0xFF800000#32) w))) := by
  have hj := j.isLt
  rw [hS _ (by omega) _, Cert.Lse.col_div_mod j, normV_apply,
    Cert.Lse.level_congr _ (fun c q => w (Cert.Lse.col c q)) 16 (fun c hc q => hS c hc q),
    Cert.Lse.total_congr _ (fun c q => w (Cert.Lse.col c q)) 16 (fun c hc q => hS c hc q),
    ofBits_neg_inf, Cert.Lse.fold_max_bot_eq_sup, max_eq_right bot_le, Ideal.ofBits_zero_f32, zero_add]
  exact Cert.Lse.online_eq_two_pass w hw j

/-! ## A grid point's block -/

section Point

variable (m : (ℓ : Loc nD τ sig) → Buf (Elt Ideal) ℓ) (c : Dev nD)
  (hX : ∀ i, ∃ r : ℝ, aX m c i = (r : EReal)) (hY : ∀ i, ∃ r : ℝ, aY m c i = (r : EReal))

/-- The row of the whole array that row r of point t's block is. -/
def rowAt (t : Fin cfg0.N) (r : Fin 128) : Fin 4096 :=
  ⟨128 * t.val + r.val, by have ht : t.val < 32 := t.isLt; have := r.isLt; omega⟩

include hX hY in
/-- Chunk c' of point t's block holds the reference's sim of row I at the chunk's columns. -/
theorem sims_eq (t : Fin cfg0.N) (r : Fin 128) (c' : ℕ) (hc : c' < 16) (q : Fin 2048) :
    sims (ms0_0 t) (hs0_0 t) (ms0_1 t) (hs0_1 t) (ms0_2 t) (hs0_2 t) (ms0_3 t) (hs0_3 t)
        (iblk m c 0 t) (iblk m c 1 t) (iblk m c 2 t) (iblk m c 3 t) c' (ix2 r q)
      = simRef (aX m c) (aY m c) (aS m c) (rowAt t r) (Cert.Lse.col c' q) := by
  have hcol : Cert.Lse.col c' q = (⟨2048 * c' + q.val, by have := q.isLt; omega⟩ : Fin 32768) := Fin.ext (Cert.Lse.col_val hc q)
  rw [sims_apply _ _ _ _ _ _ _ _ _ _ _ _ c' hc r q, hcol]
  simp only [iblk0_apply, iblk1_apply, iblk2_apply, iblk3_apply]
  rw [V_b_apply, V_n_apply]
  exact (sim_eq (aX m c) (aY m c) (aS m c) hX hY (rowAt t r) _).1

include hX hY in
/-- WHAT POINT t WRITES BACK is block t of the reference's result. -/
theorem flushed_eq (t : Fin cfg0.N) :
    (dats m 0 c).flushed 4 t
      = ((cfg0.win 4).blk t).view.read (Elt Ideal)
          (Cert.ReferenceIdeal.ReadP.val_main_v21 (F := Ideal) (aX m c) (aY m c) (aS m c)) := by
  rw [Cert.KernelIdeal.Value.flushed4_A]
  funext y
  obtain ⟨r, j, rfl⟩ : ∃ (r : Fin 128) (j : Fin 32768), y = ix2 r j := ⟨y 0, y 1, eq_ix2 y⟩
  obtain ⟨-, -, -, -, -, -, -, -, e0, e1⟩ := idx_facts t
  have hemb : ((cfg0.win 4).blk t).view.emb (ix2 r j) = ix2 (rowAt t r) j := funext fun a => Fin.ext (by
    match a with
    | ⟨0, _⟩ => show win0_4.index t (0 : Fin 2) * 128 + 1 * r.val = 128 * t.val + r.val; omega
    | ⟨1, _⟩ => show win0_4.index t (1 : Fin 2) * 32768 + 1 * j.val = j.val; omega)
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix2 r j)
    = Cert.ReferenceIdeal.ReadP.val_main_v21 (F := Ideal) (aX m c) (aY m c) (aS m c) (((cfg0.win 4).blk t).view.emb (ix2 r j))
  rw [hemb, Cert.ReferenceIdeal.RefValue.v21_apply, out_apply]
  exact row_eq (fun k => simRef (aX m c) (aY m c) (aS m c) (rowAt t r) k)
    (fun k => (sim_eq (aX m c) (aY m c) (aS m c) hX hY (rowAt t r) k).2) _ r
    (fun c' hc q => sims_eq m c hX hY t r c' hc q) j

/-- Every index of the output array lies in the block of the point its row belongs to. -/
theorem cover (i : S4096x32768.Idx) :
    ∃ t : Fin cfg0.N, (cfg0.win 4).flush t = true ∧ i ∈ ((cfg0.win 4).blk t).view.set := by
  have hi0 : (i 0).val < 4096 := (i 0).isLt
  have hi1 : (i 1).val < 32768 := (i 1).isLt
  obtain ⟨t, ht⟩ : ∃ t : Fin cfg0.N, t.val = (i 0).val / 128 := ⟨⟨(i 0).val / 128, by show _ < 32; omega⟩, rfl⟩
  refine ⟨t, flush0_4 t, ?_⟩
  obtain ⟨-, -, -, -, -, -, -, -, e0, e1⟩ := idx_facts t
  show i ∈ ((View.whole main_v6).slice (win0_4.rect t)).set
  rw [View.set_slice_whole, Rect.mem_set_unit]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 32768 ≤ (i 1).val ∧ (i 1).val < win0_4.index t (1 : Fin 2) * 32768 + 32768
    omega

include hX hY in
/-- THE OUTPUT ARRAY after the run is the reference's result of the arguments. -/
theorem final : (dats m 0 c).arrAt 4 cfg0.N
    = Cert.ReferenceIdeal.ReadP.val_main_v21 (F := Ideal) (aX m c) (aY m c) (aS m c) :=
  (dats m 0 c).arrAt_eq_of_cover 4 _ (fun t _ => flushed_eq m c hX hY t) cover

end Point

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on x, y and std, the kernel's output array and the reference's result are one array. -/
theorem algebraic : Cert.algebraic_KernelIdeal_ReferenceIdeal := by
  intro m ρ m' ρ' hpre hagree
  refine ⟨fun c => Cert.ReferenceIdeal.ReadP.val_main_v21 (F := Ideal) (aX m c) (aY m c) (aS m c), ?_, ?_⟩
  · refine (θ_run Cert.KernelIdeal.defs _ _).mono (fun r h c => ⟨(h c).1.trans ?_, (h c).2⟩)
      (Cert.KernelIdeal.Value.run_blocks m ρ)
    obtain ⟨hX, hY⟩ := Cert.Finite.entries_real _ _ _ (hpre c)
    exact final m c hX hY
  · refine (θ_run Cert.ReferenceIdeal.defs _ _).mono (fun r h c => ⟨(h c).1.trans ?_, (h c).2⟩)
      (Cert.ReferenceIdeal.ValueP.run (F := Ideal) m' ρ')
    refine (Cert.ReferenceIdeal.ReadP.val_main_v21_eq m' c).trans ?_
    rw [(hagree c).1, (hagree c).2.1, (hagree c).2.2]

end Cert.Final

end
-- ==== Proof.lean ====
/-
  The kernel computes, row by row, the log-softmax of sim(i,j) = -dist(i,j)/std(j), where
  dist(i,j) = sqrt (max (|x_i|² + |y_j|² - 2 x_i·y_j, ε)), by a running maximum and a running rescaled sum of exponentials
  over sixteen column chunks, and then subtracts max + log sum; the reference takes the row maximum, subtracts it, and
  subtracts the log of the sum of exponentials.  On the extended reals, for finite x and y and any std, both are one
  function (std(j) = 0 gives sim(i,j) = -∞ on both sides, which the running pair carries).  The modules, in order:
  LibLseChunks and LseRow (the running pair and the two passes agree on a row of 32768 read as sixteen chunks), KernelBlock,
  KernelCanon and KernelRead (what a grid point's body leaves in its block, read at an index), Args (the input blocks as
  entries of the arguments), RefRead (the reference at an index), SimBridge and Finite (one entry of sim; the precondition),
  Final (the block of every grid point is the reference's block; the claims).
-/
import proofs.«155251_j71116068487480_2_alg».proof.Defs
import proofs.«155251_j71116068487480_2_alg».proof.Proof.Gen.Kernel
import proofs.«155251_j71116068487480_2_alg».proof.Proof.Gen.Kernel.Skeleton
import proofs.«155251_j71116068487480_2_alg».proof.Proof.Gen.Kernel.Launch
import proofs.«155251_j71116068487480_2_alg».proof.Proof.Gen.Kernel.Points
import proofs.«155251_j71116068487480_2_alg».proof.Proof.Gen.Kernel.Frame
import proofs.«155251_j71116068487480_2_alg».proof.Proof.Gen.KernelIdeal
import proofs.«155251_j71116068487480_2_alg».proof.Proof.Gen.KernelIdeal.Skeleton
import proofs.«155251_j71116068487480_2_alg».proof.Proof.Gen.KernelIdeal.Launch
import proofs.«155251_j71116068487480_2_alg».proof.Proof.Gen.KernelIdeal.Points
import proofs.«155251_j71116068487480_2_alg».proof.Proof.Gen.KernelIdeal.Frame
import proofs.«155251_j71116068487480_2_alg».proof.Proof.Gen.KernelIdeal.Value
import proofs.«155251_j71116068487480_2_alg».proof.Proof.Gen.ReferenceIdeal
import proofs.«155251_j71116068487480_2_alg».proof.Proof.Gen.Pre_finite_inputs
import proofs.«155251_j71116068487480_2_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Final.frame_k, Cert.Final.frame_ki, Cert.Final.frame_ri, trivial, Cert.Final.algebraic⟩

end Cert.Proof

end
